-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x256 .f32) (main_arg5 : FVec F S64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x4096 .f32) (main_arg2 : FVec F S512x512 .f32) (main_arg3 : FVec F S512x256 .f32) (main_arg4 : FVec F S64x256 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S4096x256 : Shape := ⟨2, ![4096, 256]⟩
abbrev S4096x64 : Shape := ⟨2, ![4096, 64]⟩
abbrev S2048x512 : Shape := ⟨2, ![2048, 512]⟩
abbrev S512x4096 : Shape := ⟨2, ![512, 4096]⟩
abbrev S512x64 : Shape := ⟨2, ![512, 64]⟩

abbrev nBuf : Space → Nat
  | .hbm => 15
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S64x256, .f32⟩
  | .hbm, ⟨5, _⟩ => ⟨S64, .f32⟩
  | .hbm, ⟨6, _⟩ => ⟨S512x512, .bf16⟩
  | .hbm, ⟨7, _⟩ => ⟨S512x256, .bf16⟩
  | .hbm, ⟨8, _⟩ => ⟨S256x64, .f32⟩
  | .hbm, ⟨9, _⟩ => ⟨S256x64, .bf16⟩
  | .hbm, ⟨10, _⟩ => ⟨S1x64, .f32⟩
  | .hbm, ⟨11, _⟩ => ⟨S4096x512, .bf16⟩
  | .hbm, ⟨12, _⟩ => ⟨S4096x512, .f32⟩
  | .hbm, ⟨13, _⟩ => ⟨S4096x256, .f32⟩
  | .hbm, ⟨14, _⟩ => ⟨S4096x64, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .bf16⟩
  | .local _ .vmem, ⟨4, _⟩ => ⟨S2048x512, .bf16⟩
  | .local _ .vmem, ⟨5, _⟩ => ⟨S512x4096, .f32⟩
  | .local _ .vmem, ⟨6, _⟩ => ⟨S512x4096, .f32⟩
  | .local _ .vmem, ⟨7, _⟩ => ⟨S4096x512, .bf16⟩
  | .local _ .vmem, ⟨8, _⟩ => ⟨S512x256, .bf16⟩
  | .local _ .vmem, ⟨9, _⟩ => ⟨S256x64, .bf16⟩
  | .local _ .vmem, ⟨10, _⟩ => ⟨S1x64, .f32⟩
  | .local _ .vmem, ⟨11, _⟩ => ⟨S512x512, .f32⟩
  | .local _ .vmem, ⟨12, _⟩ => ⟨S512x512, .f32⟩
  | .local _ .vmem, ⟨13, _⟩ => ⟨S512x256, .f32⟩
  | .local _ .vmem, ⟨14, _⟩ => ⟨S512x256, .f32⟩
  | .local _ .vmem, ⟨15, _⟩ => ⟨S512x64, .f32⟩
  | .local _ .vmem, ⟨16, _⟩ => ⟨S512x64, .f32⟩
  | .local _ .vmem, ⟨17, _⟩ => ⟨S4096x4096, .bf16⟩
  | .local _ .vmem, ⟨18, _⟩ => ⟨S4096x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c512_i32 : BitVec 32 := 512#32
  let v8 : BitVec 32 := Scalar.muli arg1 c512_i32
  let v9 : Index := Scalar.indexCast v8
  let c0_3 : Index := 0#32
  ![v9.toNat, 0]
def k1_off2 (i : grid1.Coords) : Fin 2 → Nat :=
  let arg1 : BitVec 32 := BitVec.ofNat 32 (i 1).val
  let c512_i32_12 : BitVec 32 := 512#32
  let v24 : BitVec 32 := Scalar.muli arg1 c512_i32_12
  let v25 : Index := Scalar.indexCast v24
  let c0_13 : Index := 0#32
  ![v25.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k1_off3 (i : grid1.Coords) : Fin 2 → Nat :=
  let arg1 : BitVec 32 := BitVec.ofNat 32 (i 1).val
  let c512_i32 : BitVec 32 := 512#32
  let v6 : BitVec 32 := Scalar.muli arg1 c512_i32
  let v7 : Index := Scalar.indexCast v6
  let c0 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  transposes_S64x256_S256x64_1_0 : S64x256.Transposes [1, 0] S256x64
  shapeCasts_S64_S1x64 : S64.ShapeCasts S1x64
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2048x512_S2048x512_0_0 : (Rect.unit (s := S2048x512) ![0, 0] S2048x512.size inb_S2048x512_S2048x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S2048x512_S512x512_S2048x512_1_0_0_1_n_n_wf : DotDims.WF S2048x512 S512x512 S2048x512 [1] [0] [0] [1] [] []
  dot_S512x4096_S4096x512_S512x512_1_0_0_1_n_n_wf : DotDims.WF S512x4096 S4096x512 S512x512 [1] [0] [0] [1] [] []
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S4096x512.size a
  hwx0_2 : ∀ i : grid0.Coords, EltTy.bits .bf16 = 32 ∨ (Rect.block (s := S4096x512) S2048x512.size (cc0_transform_2 i) (hinb0_2 i)).WholeWords (EltTy.packing .bf16)
  hrank1 : 0 < grid1.rank
  k1_off1_inb : ∀ i : grid1.Coords, ∀ (k1_h1 : k1_cond1 i = 1#1), ∀ a, (k1_off1 i) a + S512x4096.size a ≤ S4096x4096.size a
  k1_off1_packedbf16 : ∀ i : grid1.Coords, ∀ (k1_h1 : k1_cond1 i = 1#1), (Rect.unit (s := S4096x4096) (k1_off1 i) S512x4096.size (k1_off1_inb i k1_h1)).PackedRows (EltTy.packing .bf16)
  k1_off2_inb : ∀ i : grid1.Coords, ∀ (k1_h1 : k1_cond1 i = 1#1), ∀ a, (k1_off2 i) a + S512x256.size a ≤ S4096x256.size a
  k1_off2_packedbf16 : ∀ i : grid1.Coords, ∀ (k1_h1 : k1_cond1 i = 1#1), (Rect.unit (s := S4096x256) (k1_off2 i) S512x256.size (k1_off2_inb i k1_h1)).PackedRows (EltTy.packing .bf16)
  k1_off3_inb : ∀ i : grid1.Coords, ∀ (k1_h2 : k1_cond2 i = 1#1), ∀ a, (k1_off3 i) a + S512x4096.size a ≤ S4096x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S4096x256.size a
  hwx1_6 : ∀ i : grid1.Coords, EltTy.bits .f32 = 32 ∨ (Rect.block (s := S4096x256) S512x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x64.size a ≤ S4096x64.size a
  hwx1_7 : ∀ i : grid1.Coords, EltTy.bits .f32 = 32 ∨ (Rect.block (s := S4096x64) S512x64.size (cc1_transform_7 i) (hinb1_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_1) S512x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_2) S512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond1 i == 1#1) | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S64x256 : Shape := ⟨2, ![64, 256]⟩
abbrev S64 : Shape := ⟨1, ![64]⟩
abbrev S_ : Shape := ⟨0, ![]⟩
abbrev S4096x256 : Shape := ⟨2, ![4096, 256]⟩
abbrev S256x64 : Shape := ⟨2, ![256, 64]⟩
abbrev S4096x64 : Shape := ⟨2, ![4096, 64]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S64x256, .f32⟩
  | .hbm, ⟨5, _⟩ => ⟨S64, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S256x64, .f32⟩
  | .hbm, ⟨17, _⟩ => ⟨S4096x64, .f32⟩
  | .hbm, ⟨18, _⟩ => ⟨S1x64, .f32⟩
  | .hbm, ⟨19, _⟩ => ⟨S4096x64, .f32⟩
  | .hbm, ⟨20, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S_S4096x256 : S_.BroadcastsInDim S4096x256 (![] : Fin 0 → Fin S4096x256.rank)
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.Kernel.Region0.lean ====
/-
  Region 0 of the program: the product s1 = x · W1, two row blocks of 2048 rows.
  At a parameter `V` (the buffers' contents when the region is entered): each window's block at a
  grid point, what the body leaves in the output window's buffer (the one store, over the loaded
  blocks), the body's triple, the proof data and the body obligation.
-/
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2048x512 := Rect.unit (s := S2048x512) ![0, 0] S2048x512.size inb_S2048x512_S2048x512_0_0
abbrev r0_w : Rect S512x512 := Rect.unit (s := S512x512) ![0, 0] S512x512.size inb_S512x512_S512x512_0_0

/-- What the body leaves in the output window's buffer: its one store, the product of the loaded
    row block with the loaded weights. -/
def out0_2 (x0 : Vec F S2048x512 .f32) (x1 : Vec F S512x512 .bf16) : Vec F S2048x512 .bf16 :=
  View.canon [⟨r0_x, k0_pay1 (View.ld x0 r0_x) (View.ld x1 r0_w)⟩]

theorem cover0_2 (p0 : Vec F S2048x512 .bf16) (y : S2048x512.Idx) :
    ∃ pc ∈ ([⟨r0_x, p0⟩] : List (View.Piece (Elt F) S2048x512 .bf16)), y ∈ pc.1.set :=
  View.cover_of_tiled [⟨r0_x, p0⟩] S2048x512.size (by rfl) y

set_option maxHeartbeats 1000000 in
/-- The body on whole staging memrefs: the inputs stay, the output holds `out0_2` of them. -/
theorem sound_kernel0 (c : Dev nD) (E : Set ℕ) (i : grid0.Coords) (arg1 : Memref sig .tc .vmem S2048x512 .f32) (harg1 : arg1.IsWhole)
    (arg2 : Memref sig .tc .vmem S512x512 .bf16) (harg2 : arg2.IsWhole) (arg3 : Memref sig .tc .vmem S2048x512 .bf16) (harg3 : arg3.IsWhole)
    (x0 : Vec F S2048x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_body i arg1 harg1 arg2 harg2 arg3 harg3) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Body.lean ====
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import Idealize.ShloMosaic.Lib.Pipeline.FrameBody
import Idealize.ShloMosaic.Lib.WritesUnit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the two propagation phases over a grid of 2 × 8 points

Phase 0 (points 0–7, row block m = the point): the adjacency row block is converted and parked in the
first scratch (rows 512·m …), h1's row block is relu(adj_m · s1), and the second scratch receives
rows 512·m … of s2 = h1 · W2. Phase 1 (points 8–15, row block m = point − 8): h2's row block is
relu(adj_m · s2) with adj_m read back from the first scratch and s2 whole from the second, and z's row
block is h2_m · Wzᵀ + bz. -/

abbrev r1_a : Rect S512x4096 := Rect.unit (s := S512x4096) ![0, 0] S512x4096.size inb_S512x4096_S512x4096_0_0
abbrev r1_s1 : Rect S4096x512 := Rect.unit (s := S4096x512) ![0, 0] S4096x512.size inb_S4096x512_S4096x512_0_0
abbrev r1_w2 : Rect S512x256 := Rect.unit (s := S512x256) ![0, 0] S512x256.size inb_S512x256_S512x256_0_0
abbrev r1_wz : Rect S256x64 := Rect.unit (s := S256x64) ![0, 0] S256x64.size inb_S256x64_S256x64_0_0
abbrev r1_bz : Rect S1x64 := Rect.unit (s := S1x64) ![0, 0] S1x64.size inb_S1x64_S1x64_0_0
abbrev r1_h1 : Rect S512x512 := Rect.unit (s := S512x512) ![0, 0] S512x512.size inb_S512x512_S512x512_0_0
abbrev r1_h2 : Rect S512x256 := Rect.unit (s := S512x256) ![0, 0] S512x256.size inb_S512x256_S512x256_0_0
abbrev r1_z : Rect S512x64 := Rect.unit (s := S512x64) ![0, 0] S512x64.size inb_S512x64_S512x64_0_0
abbrev r1_s2 : Rect S4096x256 := Rect.unit (s := S4096x256) ![0, 0] S4096x256.size inb_S4096x256_S4096x256_0_0

/-- The h1 row block the body leaves: relu of the adjacency row block times s1. -/
def out1_5 (x0 : Vec F S512x4096 .f32) (x1 : Vec F S4096x512 .bf16) : Vec F S512x512 .f32 :=
  View.canon [⟨r1_h1, k1_pay3 (View.ld x0 r1_a) (View.ld x1 r1_s1)⟩]
/-- The h2 row block: relu of the parked adjacency row block times the whole of s2. -/
def out1_6 (v8 : Vec F S512x4096 .bf16) (v9 : Vec F S4096x256 .bf16) : Vec F S512x256 .f32 :=
  View.canon [⟨r1_h2, k1_pay5 v8 v9⟩]
/-- The z row block: that h2 row block times the transposed head weights, plus the bias row. -/
def out1_7 (v8 : Vec F S512x4096 .bf16) (v9 : Vec F S4096x256 .bf16) (x3 : Vec F S256x64 .bf16) (x4 : Vec F S1x64 .f32) : Vec F S512x64 .f32 :=
  View.canon [⟨r1_z, k1_pay6 v8 v9 (View.ld x3 r1_wz) (View.ld x4 r1_bz)⟩]

theorem cover1_5 (p0 : Vec F S512x512 .f32) (y : S512x512.Idx) :
    ∃ pc ∈ ([⟨r1_h1, p0⟩] : List (View.Piece (Elt F) S512x512 .f32)), y ∈ pc.1.set :=
  View.cover_of_tiled [⟨r1_h1, p0⟩] S512x512.size (by rfl) y
theorem cover1_6 (p0 : Vec F S512x256 .f32) (y : S512x256.Idx) :
    ∃ pc ∈ ([⟨r1_h2, p0⟩] : List (View.Piece (Elt F) S512x256 .f32)), y ∈ pc.1.set :=
  View.cover_of_tiled [⟨r1_h2, p0⟩] S512x256.size (by rfl) y
theorem cover1_7 (p0 : Vec F S512x64 .f32) (y : S512x64.Idx) :
    ∃ pc ∈ ([⟨r1_z, p0⟩] : List (View.Piece (Elt F) S512x64 .f32)), y ∈ pc.1.set :=
  View.cover_of_tiled [⟨r1_z, p0⟩] S512x64.size (by rfl) y

/-- A scratch of 4096 rows after rows 512·m … 512·m+511 were overwritten with a block `P`: the block on
    those rows, the old contents elsewhere. -/
def RowsSet {n : ℕ} {e : EltTy} (m : ℕ) (P : (⟨2, ![512, n]⟩ : Shape).Idx → Elt F e)
    (old new : (⟨2, ![4096, n]⟩ : Shape).Idx → Elt F e) : Prop :=
  (∀ (y : (⟨2, ![4096, n]⟩ : Shape).Idx) (x : (⟨2, ![512, n]⟩ : Shape).Idx),
      (y 0).val = 512 * m + (x 0).val → (y 1).val = (x 1).val → new y = P x)
  ∧ (∀ y : (⟨2, ![4096, n]⟩ : Shape).Idx, ((y 0).val < 512 * m ∨ 512 * m + 512 ≤ (y 0).val) → new y = old y)

set_option maxHeartbeats 600000 in
/-- PHASE 0 of the body on whole memrefs: the three inputs it reads stay, the h1 window holds `out1_5`, and
    each scratch has the point's rows overwritten (the adjacency block converted; the block of s2). -/
theorem sound_phase0 (c : Dev nD) (E : Set ℕ) (i : grid1.Coords)
    (arg2 : Memref sig .tc .vmem S512x4096 .f32) (harg2 : arg2.IsWhole) (arg3 : Memref sig .tc .vmem S4096x512 .bf16) (harg3 : arg3.IsWhole)
    (arg4 : Memref sig .tc .vmem S512x256 .bf16) (harg4 : arg4.IsWhole) (arg5 : Memref sig .tc .vmem S256x64 .bf16) (harg5 : arg5.IsWhole)
    (arg6 : Memref sig .tc .vmem S1x64 .f32) (harg6 : arg6.IsWhole) (arg7 : Memref sig .tc .vmem S512x512 .f32) (harg7 : arg7.IsWhole)
    (arg8 : Memref sig .tc .vmem S512x256 .f32) (harg8 : arg8.IsWhole) (arg9 : Memref sig .tc .vmem S512x64 .f32) (harg9 : arg9.IsWhole)
    (arg10 : Memref sig .tc .vmem S4096x4096 .bf16) (harg10 : arg10.IsWhole) (arg11 : Memref sig .tc .vmem S4096x256 .bf16) (harg11 : arg11.IsWhole)
    (hc1 : k1_cond1 i = 1#1) (hc2 : ¬ k1_cond2 i = 1#1)
    (x0 : Vec F S512x4096 .f32) (x1 : Vec F S4096x512 .bf16) (x2 : Vec F S512x256 .bf16)
    (xs0 : Vec F S4096x4096 .bf16) (xs1 : Vec F S4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2
            ∗ owns (c : Thread nD τ) arg7 fullShare (out1_5 x0 x1)
            ∗ (∃ xs0' xs1', ⌜RowsSet (i 1).val (k1_pay2 (View.ld x0 r1_a)) xs0 xs0'
                  ∧ RowsSet (i 1).val (k1_pay4 (View.ld x0 r1_a) (View.ld x1 r1_s1) (View.ld x2 r1_w2)) xs1 xs1'⌝
                ∗ owns (c : Thread nD τ) arg10 fullShare xs0' ∗ owns (c : Thread nD τ) arg11 fullShare xs1')) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
  subst hf0; subst hf1; subst hf2; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (cover1_5 _)
  iexists _, _
  isplitr
  swap
  · isplitl [HS0]
    · iexists _; isplitr
      swap; · iexact HS0
      ipureintro; rfl
    · iexists _; isplitr
      swap; · iexact HS1
      ipureintro; rfl
  ipureintro
  refine ⟨⟨fun y x h0 h1 => ?_, fun y h => ?_⟩, ⟨fun y x h0 h1 => ?_, fun y h => ?_⟩⟩
  · exact View.read_writes_cons_rows_of_mem arg10.view fs0 _ _ [] y x (k1_off1_eq i) h0 h1
  · exact View.read_writes_cons_rows_of_not_mem arg10.view fs0 _ _ [] y (k1_off1_eq i) rfl h
  · exact View.read_writes_cons_rows_of_mem arg11.view fs1 _ _ [] y x (k1_off2_eq i) h0 h1
  · exact View.read_writes_cons_rows_of_not_mem arg11.view fs1 _ _ [] y (k1_off2_eq i) rfl h

set_option maxHeartbeats 600000 in
/-- PHASE 1 of the body on whole memrefs: the inputs and both scratches stay, the h2 window holds `out1_6` and
    the z window `out1_7` of the point's rows of the first scratch and the whole second scratch. -/
theorem sound_phase1 (c : Dev nD) (E : Set ℕ) (i : grid1.Coords)
    (arg2 : Memref sig .tc .vmem S512x4096 .f32) (harg2 : arg2.IsWhole) (arg3 : Memref sig .tc .vmem S4096x512 .bf16) (harg3 : arg3.IsWhole)
    (arg4 : Memref sig .tc .vmem S512x256 .bf16) (harg4 : arg4.IsWhole) (arg5 : Memref sig .tc .vmem S256x64 .bf16) (harg5 : arg5.IsWhole)
    (arg6 : Memref sig .tc .vmem S1x64 .f32) (harg6 : arg6.IsWhole) (arg7 : Memref sig .tc .vmem S512x512 .f32) (harg7 : arg7.IsWhole)
    (arg8 : Memref sig .tc .vmem S512x256 .f32) (harg8 : arg8.IsWhole) (arg9 : Memref sig .tc .vmem S512x64 .f32) (harg9 : arg9.IsWhole)
    (arg10 : Memref sig .tc .vmem S4096x4096 .bf16) (harg10 : arg10.IsWhole) (arg11 : Memref sig .tc .vmem S4096x256 .bf16) (harg11 : arg11.IsWhole)
    (hc1 : ¬ k1_cond1 i = 1#1) (hc2 : k1_cond2 i = 1#1)
    (x3 : Vec F S256x64 .bf16) (x4 : Vec F S1x64 .f32)
    (xs0 : Vec F S4096x4096 .bf16) (xs1 : Vec F S4096x256 .bf16) (K : PUnit → sProp 𝕄) :
    iprop(owns (c : Thread nD τ) arg5 fullShare x3 ∗ owns (c : Thread nD τ) arg6 fullShare x4
        ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg5 fullShare x3 ∗ owns (c : Thread nD τ) arg6 fullShare x4
            ∗ owns (c : Thread nD τ) arg8 fullShare (out1_6 (View.ld xs0 (Rect.unit (s := S4096x4096) (k1_off3 i) S512x4096.size (Facts₀.k1_off3_inb i hc2))) (View.ld xs1 r1_s2))
            ∗ owns (c : Thread nD τ) arg9 fullShare (out1_7 (View.ld xs0 (Rect.unit (s := S4096x4096) (k1_off3 i) S512x4096.size (Facts₀.k1_off3_inb i hc2))) (View.ld xs1 r1_s2) x3 x4)
            ∗ owns (c : Thread nD τ) arg10 fullShare xs0 ∗ owns (c : Thread nD τ) arg11 fullShare xs1) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f3, %hf3, H3⟩, ⟨%f4, %hf4, H4⟩, ⟨%d6, %f6, -, H6⟩, ⟨%d7, %f7, -, H7⟩, ⟨%fs0, %hfs0, HS0⟩, ⟨%fs1, %hfs1, HS1⟩, Hk⟩
  subst hf3; subst hf4; subst hfs0; subst hfs1
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  isplitl [HS0]
  · iexists fs0; isplitr; · ipureintro; rfl
    iexact HS0
  · iexists fs1; isplitr; · ipureintro; rfl
    iexact HS1

end Cert.Kernel.Hand

end
-- ==== Proof.Kernel.Region1Data.lean ====
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import proofs.«139762_g57612691309227_cont_sun_m_451_20_alg».proof.Proof.Kernel.Region1Body
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2 idx2_lt0 idx2_lt1)

variable (V : (c : Dev nD) → (b : Ref sig .tc) → Buf (Elt F) ((c : Thread nD τ).loc b))

/-! ## The schedule of region 1, decided over its 16 points -/

theorem N1 : cfg1.N = 16 := N_1
theorem cond1_iff : ∀ t : Fin cfg1.N, k1_cond1 (cfg1.grid.coords t) = 1#1 ↔ t.val < 8 :=
  (by decide +kernel : ∀ t : Fin grid1.N, k1_cond1 (grid1.coords t) = 1#1 ↔ t.val < 8)
theorem cond2_iff : ∀ t : Fin cfg1.N, k1_cond2 (cfg1.grid.coords t) = 1#1 ↔ 8 ≤ t.val :=
  (by decide +kernel : ∀ t : Fin grid1.N, k1_cond2 (grid1.coords t) = 1#1 ↔ 8 ≤ t.val)
theorem coord1_eq : ∀ t : Fin cfg1.N, ((cfg1.grid.coords t) 1).val = t.val % 8 :=
  (by decide +kernel : ∀ t : Fin grid1.N, ((grid1.coords t) 1).val = t.val % 8)
theorem idle5_eq : ∀ t : Fin cfg1.N, cfg1.idle 5 (cfg1.grid.coords t) = decide (8 ≤ t.val) :=
  (by decide +kernel : ∀ t : Fin grid1.N, idle1 5 (grid1.coords t) = decide (8 ≤ t.val))
theorem idle6_eq : ∀ t : Fin cfg1.N, cfg1.idle 6 (cfg1.grid.coords t) = decide (t.val < 8) :=
  (by decide +kernel : ∀ t : Fin grid1.N, idle1 6 (grid1.coords t) = decide (t.val < 8))
theorem idle7_eq : ∀ t : Fin cfg1.N, cfg1.idle 7 (cfg1.grid.coords t) = decide (t.val < 8) :=
  (by decide +kernel : ∀ t : Fin grid1.N, idle1 7 (grid1.coords t) = decide (t.val < 8))
theorem flush5_eq : ∀ t : Fin cfg1.N, (cfg1.win 5).flush t = decide (t.val < 7 ∨ t.val = 15) :=
  (by decide +kernel : ∀ t : Fin grid1.N, win1_5.flush t = decide (t.val < 7 ∨ t.val = 15))
theorem flush6_eq : ∀ t : Fin cfg1.N, (cfg1.win 6).flush t = decide (8 ≤ t.val) :=
  (by decide +kernel : ∀ t : Fin grid1.N, win1_6.flush t = decide (8 ≤ t.val))
theorem flush7_eq : ∀ t : Fin cfg1.N, (cfg1.win 7).flush t = decide (8 ≤ t.val) :=
  (by decide +kernel : ∀ t : Fin grid1.N, win1_7.flush t = decide (8 ≤ t.val))

/-- The point of phase 0 that handles the same row block as `t`. -/
def lo (t : Fin cfg1.N) : Fin cfg1.N := ⟨t.val % 8, lt_of_lt_of_eq (by omega : t.val % 8 < 16) N1.symm⟩
/-- The last point at or before `t` whose body stored into the h1 window. -/
def clamp7 (t : Fin cfg1.N) : Fin cfg1.N := ⟨min t.val 7, lt_of_lt_of_eq (by omega : min t.val 7 < 16) N1.symm⟩

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The adjacency row block the window holds at point `t`. -/
def X0 (c : Dev nD) (t : Fin cfg1.N) : Vec F S512x4096 .f32 := iblk1 V c 0 t
/-- s1, the second-layer weights, the transposed head weights and the bias row: one block each, whatever the point. -/
def S1v (c : Dev nD) : Vec F S4096x512 .bf16 := iblk1 V c 1 t1_0
def W2v (c : Dev nD) : Vec F S512x256 .bf16 := iblk1 V c 2 t1_0
def Wzv (c : Dev nD) : Vec F S256x64 .bf16 := iblk1 V c 3 t1_0
def Bzv (c : Dev nD) : Vec F S1x64 .f32 := iblk1 V c 4 t1_0

theorem iblk1_1_eq (c : Dev nD) (t : Fin cfg1.N) : iblk1 V c 1 t = S1v V c := rfl
theorem iblk1_2_eq (c : Dev nD) (t : Fin cfg1.N) : iblk1 V c 2 t = W2v V c := rfl
theorem iblk1_3_eq (c : Dev nD) (t : Fin cfg1.N) : iblk1 V c 3 t = Wzv V c := rfl
theorem iblk1_4_eq (c : Dev nD) (t : Fin cfg1.N) : iblk1 V c 4 t = Bzv V c := rfl

/-- The adjacency row block of point `t` as parked in the first scratch, and the rows of s2 it produces. -/
def Abf (c : Dev nD) (t : Fin cfg1.N) : Vec F S512x4096 .bf16 := k1_pay2 (View.ld (X0 V c t) r1_a)
def S2b (c : Dev nD) (t : Fin cfg1.N) : Vec F S512x256 .bf16 :=
  k1_pay4 (View.ld (X0 V c t) r1_a) (View.ld (S1v V c) r1_s1) (View.ld (W2v V c) r1_w2)

/-- Row r of a 4096-row scratch belongs to the block of point r / 512, at local row r % 512. -/
def rowBlk {n : ℕ} (j : (⟨2, ![4096, n]⟩ : Shape).Idx) : Fin cfg1.N :=
  ⟨(j 0).val / 512, lt_of_lt_of_eq (by have := idx2_lt0 j; omega : (j 0).val / 512 < 16) N1.symm⟩
def rowLoc {n : ℕ} (j : (⟨2, ![4096, n]⟩ : Shape).Idx) : (⟨2, ![512, n]⟩ : Shape).Idx :=
  ix2 ⟨(j 0).val % 512, Nat.mod_lt _ (by norm_num)⟩ ⟨(j 1).val, idx2_lt1 j⟩

/-- What the two scratches hold once phase 0 is over: every adjacency row block converted; all of s2. -/
def A0 (c : Dev nD) : Vec F S4096x4096 .bf16 := fun j => Abf V c (rowBlk j) (rowLoc j)
def A1 (c : Dev nD) : Vec F S4096x256 .bf16 := fun j => S2b V c (rowBlk j) (rowLoc j)

/-- Before point `n` the scratches hold those contents on the rows of the blocks already handled. -/
def Inv (c : Dev nD) (n : ℕ) (xs0 : Vec F S4096x4096 .bf16) (xs1 : Vec F S4096x256 .bf16) : Prop :=
  (∀ j : S4096x4096.Idx, (j 0).val < 512 * min n 8 → xs0 j = A0 V c j)
  ∧ (∀ j : S4096x256.Idx, (j 0).val < 512 * min n 8 → xs1 j = A1 V c j)

theorem Inv_zero (c : Dev nD) (xs0 : Vec F S4096x4096 .bf16) (xs1 : Vec F S4096x256 .bf16) : Inv V c 0 xs0 xs1 :=
  ⟨fun j h => absurd h (by omega), fun j h => absurd h (by omega)⟩

/-- One step of phase 0: the point's rows overwritten with its blocks extend the invariant by one block. -/
theorem Inv_step (c : Dev nD) (t : Fin cfg1.N) (ht : t.val < 8) (m : ℕ) (hm : m = t.val)
    (xs0 xs0' : Vec F S4096x4096 .bf16) (xs1 xs1' : Vec F S4096x256 .bf16) (h : Inv V c t.val xs0 xs1)
    (h0 : RowsSet m (Abf V c t) xs0 xs0') (h1 : RowsSet m (S2b V c t) xs1 xs1') : Inv V c (t.val + 1) xs0' xs1' := by
  subst hm
  have hmin : min t.val 8 = t.val := by omega
  have hmin' : min (t.val + 1) 8 = t.val + 1 := by omega
  refine ⟨fun j hj => ?_, fun j hj => ?_⟩
  · rw [hmin'] at hj
    by_cases hlt : (j 0).val < 512 * t.val
    · rw [h0.2 j (.inl hlt)]; exact h.1 j (by rw [hmin]; exact hlt)
    · rw [h0.1 j (rowLoc j) (by show (j 0).val = 512 * t.val + (j 0).val % 512; omega) rfl]
      have hb : rowBlk j = t := Fin.ext (by show (j 0).val / 512 = t.val; omega)
      show _ = Abf V c (rowBlk j) (rowLoc j)
      rw [hb]
  · rw [hmin'] at hj
    by_cases hlt : (j 0).val < 512 * t.val
    · rw [h1.2 j (.inl hlt)]; exact h.2 j (by rw [hmin]; exact hlt)
    · rw [h1.1 j (rowLoc j) (by show (j 0).val = 512 * t.val + (j 0).val % 512; omega) rfl]
      have hb : rowBlk j = t := Fin.ext (by show (j 0).val / 512 = t.val; omega)
      show _ = S2b V c (rowBlk j) (rowLoc j)
      rw [hb]

/-- In phase 1 the invariant names both scratches whole, and does not change. -/
theorem Inv_full (c : Dev nD) (n : ℕ) (hn : 8 ≤ n) (xs0 : Vec F S4096x4096 .bf16) (xs1 : Vec F S4096x256 .bf16)
    (h : Inv V c n xs0 xs1) : xs0 = A0 V c ∧ xs1 = A1 V c := by
  have hmin : min n 8 = 8 := by omega
  exact ⟨funext fun j => h.1 j (by rw [hmin]; have := idx2_lt0 j; omega), funext fun j => h.2 j (by rw [hmin]; have := idx2_lt0 j; omega)⟩
theorem Inv_succ_of_full (c : Dev nD) (n : ℕ) (hn : 8 ≤ n) (xs0 : Vec F S4096x4096 .bf16) (xs1 : Vec F S4096x256 .bf16)
    (h : Inv V c n xs0 xs1) : Inv V c (n + 1) xs0 xs1 := by
  have hmin : min n 8 = 8 := by omega
  have hmin' : min (n + 1) 8 = 8 := by omega
  unfold Inv at h ⊢; rw [hmin'] ; rw [hmin] at h; exact h

/-- The point's rows of the filled first scratch are its adjacency row block, converted. -/
theorem ld_A0 (c : Dev nD) (t : Fin cfg1.N) (off : Fin 2 → ℕ) (hoff : off = ![512 * (t.val % 8), 0])
    (inb : ∀ a, off a + S512x4096.size a ≤ S4096x4096.size a) :
    View.ld (A0 V c) (Rect.unit (s := S4096x4096) off S512x4096.size inb) = Abf V c (lo t) := by
  subst hoff
  funext x
  show Abf V c (rowBlk ((Rect.unit (s := S4096x4096) _ S512x4096.size inb).idx x)) (rowLoc ((Rect.unit (s := S4096x4096) _ S512x4096.size inb).idx x)) = _
  have hx0 : (x 0).val < 512 := idx2_lt0 x
  have hb : rowBlk ((Rect.unit (s := S4096x4096) ![512 * (t.val % 8), 0] S512x4096.size inb).idx x) = lo t :=
    Fin.ext (by show (512 * (t.val % 8) + 1 * (x 0).val) / 512 = t.val % 8; omega)
  have hl : rowLoc ((Rect.unit (s := S4096x4096) ![512 * (t.val % 8), 0] S512x4096.size inb).idx x) = x := by
    funext a
    match a with
    | ⟨0, _⟩ => exact Fin.ext (by show (512 * (t.val % 8) + 1 * (x 0).val) % 512 = (x 0).val; omega)
    | ⟨1, _⟩ => exact Fin.ext (by show (0 + 1 * (x 1).val) = (x 1).val; omega)
  rw [hb, hl]

end Cert.Kernel.Hand

end
-- ==== Proof.Kernel.Region1Dat.lean ====
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import proofs.«139762_g57612691309227_cont_sun_m_451_20_alg».proof.Proof.Kernel.Region1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2 idx2_lt0 idx2_lt1)

variable (V : (c : Dev nD) → (b : Ref sig .tc) → Buf (Elt F) ((c : Thread nD τ).loc b))

/-! ## The proof data of region 1 -/

/-- The first region's staging buffers, which this region leaves alone. -/
def R5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: both scratches held whole at contents that satisfy `Inv`, the other scoped
    buffers at anything, the generator register at some state. -/
def Φ1 (c : Dev nD) (n : ℕ) : sProp 𝕄 :=
  iprop((∃ (xs0 : Vec F S4096x4096 .bf16) (xs1 : Vec F S4096x256 .bf16), ⌜Inv V c n xs0 xs1⌝
      ∗ owns (c : Thread nD τ) (Memref.whole cc1_scratch0) fullShare xs0 ∗ owns (c : Thread nD τ) (Memref.whole cc1_scratch1) fullShare xs1)
    ∗ R5 (F := F) c ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (X0 V c (clamp7 t)) (S1v V c)
    | ⟨6, _⟩ => out1_6 (Abf V c (lo t)) (View.ld (A1 V c) r1_s2)
    | ⟨7, _⟩ => out1_7 (Abf V c (lo t)) (View.ld (A1 V c) r1_s2) (Wzv V c) (Bzv V c)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (X0 V c (clamp7 t)) (S1v V c) := by dsimp only [dat1]
theorem after1_6 (c : Dev nD) (t : Fin cfg1.N) : (dat1 V c).after 6 t = out1_6 (Abf V c (lo t)) (View.ld (A1 V c) r1_s2) := by dsimp only [dat1]
theorem after1_7 (c : Dev nD) (t : Fin cfg1.N) : (dat1 V c).after 7 t = out1_7 (Abf V c (lo t)) (View.ld (A1 V c) r1_s2) (Wzv V c) (Bzv V c) := by dsimp only [dat1]

theorem before1_0 (c : Dev nD) (t : Fin cfg1.N) (d) : (dat1 V c).before 0 t d = X0 V c t :=
  before1_0_of V (dat1 V c) (A_eq1 V c 0) (after1_0 V c) t d
theorem before1_1 (c : Dev nD) (t : Fin cfg1.N) (d) : (dat1 V c).before 1 t d = S1v V c :=
  before1_1_of V (dat1 V c) (A_eq1 V c 1) (after1_1 V c) t d
theorem before1_2 (c : Dev nD) (t : Fin cfg1.N) (d) : (dat1 V c).before 2 t d = W2v V c :=
  before1_2_of V (dat1 V c) (A_eq1 V c 2) (after1_2 V c) t d
theorem before1_3 (c : Dev nD) (t : Fin cfg1.N) (d) : (dat1 V c).before 3 t d = Wzv V c :=
  before1_3_of V (dat1 V c) (A_eq1 V c 3) (after1_3 V c) t d
theorem before1_4 (c : Dev nD) (t : Fin cfg1.N) (d) : (dat1 V c).before 4 t d = Bzv V c :=
  before1_4_of V (dat1 V c) (A_eq1 V c 4) (after1_4 V c) t d

/-- After a point that does not write the h1 block back, the next point finds what that point left. -/
theorem before1_5_step (c : Dev nD) (k : ℕ) (hk : k < cfg1.N) (h : k + 1 < cfg1.N) (hk7 : 7 ≤ k) (hk14 : k + 1 ≤ 15) (d) :
    (dat1 V c).before 5 ⟨k + 1, h⟩ d = (dat1 V c).left 5 ⟨k, hk⟩ d := by
  rw [(dat1 V c).before_of_pos 5 ⟨k + 1, h⟩ (Nat.succ_ne_zero k) rfl d]
  split
  · next hfl =>
    exact absurd ((flush5_eq _).symm.trans hfl) (by simp only [decide_eq_true_eq, Nat.add_sub_cancel]; omega)
  · rfl

/-- The h1 window through phase 1: its buffer still holds the last row block of h1, stored at point 7 and
    not written back since (the block index does not move), whatever it held before. -/
theorem before1_5_late (c : Dev nD) (k : ℕ) (hk7 : 7 ≤ k) (h : k + 1 < cfg1.N) (d) :
    (dat1 V c).before 5 ⟨k + 1, h⟩ d = out1_5 (X0 V c (clamp7 ⟨7, lt_of_lt_of_eq (by omega : 7 < 16) N1.symm⟩)) (S1v V c) := by
  induction k, hk7 using Nat.le_induction with
  | base =>
    rw [before1_5_step V c 7 (lt_of_lt_of_eq (by omega : 7 < 16) N1.symm) h (le_refl _) (by omega) d]
    unfold Dat.left
    split
    · next heq => exact absurd ((idle5_eq _).symm.trans heq) (by simp)
    · unfold Dat.kept
      rw [Pipeline.fill_of_clip_none 5 _ (fun _ => rfl) d ((dat1 V c).after 5 _), Window.fill_cut, after1_5]
  | succ k hk ih =>
    have h16 : k + 1 + 1 < 16 := lt_of_lt_of_eq h N1
    rw [before1_5_step V c (k + 1) (lt_of_lt_of_eq (by omega : k + 1 < 16) N1.symm) h (by omega) (by omega) d]
    unfold Dat.left
    split
    · exact ih _
    · next heq => exact absurd ((idle5_eq _).symm.trans heq) (by simp only [decide_eq_false_iff_not, not_not]; show 8 ≤ k + 1; omega)

end Cert.Kernel.Hand

end
-- ==== Proof.Kernel.Region1.lean ====
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import proofs.«139762_g57612691309227_cont_sun_m_451_20_alg».proof.Proof.Kernel.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation of region 1 -/

abbrev sc0 : Memref sig .tc .vmem S4096x4096 .bf16 := Memref.whole cc1_scratch0
abbrev sc1 : Memref sig .tc .vmem S4096x256 .bf16 := Memref.whole cc1_scratch1

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns in phase 0: the h1 window at its row block, the h2 and z windows as found. -/
def bodyPostA (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (∃ d, owns (c : Thread nD τ) (st1_6 t) fullShare ((dat1 V c).before 6 t d))
    ∗ (∃ d, owns (c : Thread nD τ) (st1_7 t) fullShare ((dat1 V c).before 7 t d)))

/-- What it returns in phase 1, the h1 window at `P5`: as found, or — at the last point, which writes it
    back — at the row block it has held since point 7. -/
def bodyPostB (c : Dev nD) (t : Fin cfg1.N) (P5 : sProp 𝕄) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ P5
    ∗ owns (c : Thread nD τ) (st1_6 t) fullShare ((dat1 V c).after 6 t)
    ∗ owns (c : Thread nD τ) (st1_7 t) fullShare ((dat1 V c).after 7 t))

theorem after1_0' (c : Dev nD) (t : Fin cfg1.N) : (dat1 V c).after 0 t = X0 V c t := after1_0 V c t
theorem after1_1' (c : Dev nD) (t : Fin cfg1.N) : (dat1 V c).after 1 t = S1v V c := after1_1 V c t
theorem after1_2' (c : Dev nD) (t : Fin cfg1.N) : (dat1 V c).after 2 t = W2v V c := after1_2 V c t
theorem after1_3' (c : Dev nD) (t : Fin cfg1.N) : (dat1 V c).after 3 t = Wzv V c := after1_3 V c t
theorem after1_4' (c : Dev nD) (t : Fin cfg1.N) : (dat1 V c).after 4 t = Bzv V c := after1_4 V c t

set_option maxHeartbeats 800000 in
theorem sound_body1A (c : Dev nD) (t : Fin cfg1.N) (ht : t.val < 8) :
    bodyPre1 V c t ⊢ wp frame (wpE (defs₀ (F := F)) Variants.none c none) Set.univ (bodyAt1 t) (fun _ => bodyPostA V c t) := by
  have hc1 : k1_cond1 (grid1.coords t) = 1#1 := (cond1_iff t).mpr ht
  have hc2 : ¬ k1_cond2 (grid1.coords t) = 1#1 := fun h => absurd ((cond2_iff t).mp h) (by omega)
  have hcl : clamp7 t = t := Fin.ext (by show min t.val 7 = t.val; omega)
  have hm : ((grid1.coords t) 1).val = t.val := (coord1_eq t).trans (Nat.mod_eq_of_lt ht)
  unfold bodyPre1 bodyPostA bodyAt1
  simp only [before1_0, before1_1, before1_2, before1_3, before1_4, after1_0', after1_1', after1_2', after1_3', after1_4']
  rw [show (dat1 V c).Φ t.castSucc = Φ1 V c t.val from rfl, show (dat1 V c).Φ t.succ = Φ1 V c (t.val + 1) from rfl,
    show (dat1 V c).owesAt () t.succ = (dat1 V c).owesAt () t.castSucc from rfl, after1_5, hcl]
  unfold Φ1
  iintro ⟨⟨⟨%xs0, %xs1, %hinv, HS0, HS1⟩, HR, Hp⟩, Ho, ⟨%d0, H0⟩, ⟨%d1, H1⟩, ⟨%d2, H2⟩, ⟨%d3, H3⟩, ⟨%d4, H4⟩, ⟨%d5, H5⟩, H6, H7⟩
  iapply (sound_phase0 c Set.univ (grid1.coords t) _ _ _ _ _ _ _ _ _ _ _ _ _ _ _ _ _ _ _ _ hc1 hc2 (X0 V c t) (S1v V c) (W2v V c) xs0 xs1 _)
  isplitl [H0]; · iexact H0
  isplitl [H1]; · iexact H1
  isplitl [H2]; · iexact H2
  isplitl [H5]; · iexists _; iexact H5
  isplitl [HS0]; · iexact HS0
  isplitl [HS1]; · iexact HS1
  iintro ⟨H0, H1, H2, H5, ⟨%xs0', %xs1', %hupd, HS0, HS1⟩⟩
  isplitl [HS0 HS1 HR Hp]
  · isplitl [HS0 HS1]
    · iexists xs0', xs1'
      isplitr
      · ipureintro
        exact Inv_step V c t ht _ hm xs0 xs0' xs1 xs1' hinv hupd.1 hupd.2
      isplitl [HS0]; · iexact HS0
      iexact HS1
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 800000 in
theorem sound_body1B (c : Dev nD) (t : Fin cfg1.N) (ht : 8 ≤ t.val) (P5 : sProp 𝕄)
    (h5 : (iprop(∃ d, owns (c : Thread nD τ) (st1_5 t) fullShare ((dat1 V c).before 5 t d)) : sProp 𝕄) ⊢ P5) :
    bodyPre1 V c t ⊢ wp frame (wpE (defs₀ (F := F)) Variants.none c none) Set.univ (bodyAt1 t) (fun _ => bodyPostB V c t P5) := by
  have hc1 : ¬ k1_cond1 (grid1.coords t) = 1#1 := fun h => absurd ((cond1_iff t).mp h) (by omega)
  have hc2 : k1_cond2 (grid1.coords t) = 1#1 := (cond2_iff t).mpr ht
  have hoff : k1_off3 (grid1.coords t) = ![512 * (t.val % 8), 0] := by rw [k1_off3_eq, coord1_eq]
  unfold bodyPre1 bodyPostB bodyAt1
  simp only [before1_0, before1_1, before1_2, before1_3, before1_4, after1_0', after1_1', after1_2', after1_3', after1_4']
  rw [show (dat1 V c).Φ t.castSucc = Φ1 V c t.val from rfl, show (dat1 V c).Φ t.succ = Φ1 V c (t.val + 1) from rfl,
    show (dat1 V c).owesAt () t.succ = (dat1 V c).owesAt () t.castSucc from rfl, after1_6, after1_7,
    ← ld_A0 V c t (k1_off3 (grid1.coords t)) hoff (Facts₀.k1_off3_inb (grid1.coords t) hc2)]
  unfold Φ1
  iintro ⟨⟨⟨%xs0, %xs1, %hinv, HS0, HS1⟩, HR, Hp⟩, Ho, ⟨%d0, H0⟩, ⟨%d1, H1⟩, ⟨%d2, H2⟩, ⟨%d3, H3⟩, ⟨%d4, H4⟩, H5, ⟨%d6, H6⟩, ⟨%d7, H7⟩⟩
  obtain ⟨rfl, rfl⟩ := Inv_full V c t.val ht xs0 xs1 hinv
  iapply (sound_phase1 c Set.univ (grid1.coords t) _ _ _ _ _ _ _ _ _ _ _ _ _ _ _ _ _ _ _ _ hc1 hc2 (Wzv V c) (Bzv V c) (A0 V c) (A1 V c) _)
  isplitl [H3]; · iexact H3
  isplitl [H4]; · iexact H4
  isplitl [H6]; · iexists _; iexact H6
  isplitl [H7]; · iexists _; iexact H7
  isplitl [HS0]; · iexact HS0
  isplitl [HS1]; · iexact HS1
  iintro ⟨H3, H4, H6, H7, HS0, HS1⟩
  isplitl [HS0 HS1 HR Hp]
  · isplitl [HS0 HS1]
    · iexists (A0 V c), (A1 V c)
      isplitr
      · ipureintro
        exact Inv_succ_of_full V c t.val ht _ _ hinv
      isplitl [HS0]; · iexact HS0
      iexact HS1
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iapply h5; iexact H5
  isplitl [H6]; · iexact H6
  iexact H7

set_option maxHeartbeats 800000 in
/-- The library's body obligation, at every point. -/
theorem body_obligation1 (c : Dev nD) : BodyObligation (dat1 (F := F) V c) (defs₀ (F := F)) Variants.none () Set.univ := fun t => by
  rw [bigSep_W1, bigSep_W1]
  have i0 : idle1 0 (grid1.coords t) = false := rfl
  have i1 : idle1 1 (grid1.coords t) = false := rfl
  have i2 : idle1 2 (grid1.coords t) = false := rfl
  have i3 : idle1 3 (grid1.coords t) = false := rfl
  have i4 : idle1 4 (grid1.coords t) = false := rfl
  by_cases ht : t.val < 8
  · have i5 : idle1 5 (grid1.coords t) = false := (idle5_eq t).trans (decide_eq_false (by omega))
    have i6 : idle1 6 (grid1.coords t) = true := (idle6_eq t).trans (decide_eq_true ht)
    have i7 : idle1 7 (grid1.coords t) = true := (idle7_eq t).trans (decide_eq_true ht)
    have f6 : (win1 6).flush t = false := (flush6_eq t).trans (decide_eq_false (by omega))
    have f7 : (win1 7).flush t = false := (flush7_eq t).trans (decide_eq_false (by omega))
    simp only [i0, i1, i2, i3, i4, i5, i6, i7, f6, f7]
    exact sound_body1A V c t ht
  · have ht8 : 8 ≤ t.val := by omega
    have i6 : idle1 6 (grid1.coords t) = false := (idle6_eq t).trans (decide_eq_false (by omega))
    have i7 : idle1 7 (grid1.coords t) = false := (idle7_eq t).trans (decide_eq_false (by omega))
    have i5 : idle1 5 (grid1.coords t) = true := (idle5_eq t).trans (decide_eq_true ht8)
    by_cases h15 : t.val = 15
    · have f5 : (win1 5).flush t = true := (flush5_eq t).trans (decide_eq_true (.inr h15))
      simp only [i0, i1, i2, i3, i4, i5, i6, i7, f5]
      refine sound_body1B V c t ht8 _ ?_
      have hb : ∀ d, (dat1 V c).before 5 t d = (dat1 V c).after 5 t := fun d => by
        obtain ⟨n, hn⟩ := t
        obtain rfl : n = 14 + 1 := h15
        rw [before1_5_late V c 14 (by omega) hn d, after1_5]
        rfl
      simp only [hb]
      iintro ⟨%d, H⟩
      iexact H
    · have f5 : (win1 5).flush t = false := (flush5_eq t).trans (decide_eq_false (by have := lt_of_lt_of_eq t.isLt N1; omega))
      simp only [i0, i1, i2, i3, i4, i5, i6, i7, f5]
      exact sound_body1B V c t ht8 _ .rfl

end Cert.Kernel.Hand

end
-- ==== Proof.Kernel.Run.lean ====
import proofs.«139762_g57612691309227_cont_sun_m_451_20_alg».proof.Proof.Gen.Kernel.Launch
import proofs.«139762_g57612691309227_cont_sun_m_451_20_alg».proof.Proof.Gen.Kernel.Skeleton
import proofs.«139762_g57612691309227_cont_sun_m_451_20_alg».proof.Proof.Gen.Kernel.Points
import proofs.«139762_g57612691309227_cont_sun_m_451_20_alg».proof.Proof.Kernel.Region0
import proofs.«139762_g57612691309227_cont_sun_m_451_20_alg».proof.Proof.Kernel.Region1
import proofs.«139762_g57612691309227_cont_sun_m_451_20_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the host stretch, region 0, region 1

## The buffers' contents at each boundary -/

/-- At launch, and after the host stretch (region 0's entry): the generated valuations. -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- At region 0's exit (region 1's entry): its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W1_arg (c : Dev nD) (r : Ref sig .tc) (h : r ∉ Gen.hostOps0_W) : W1 m c (Proc.devRef .tc r) = m ((c : Thread nD τ).loc r) :=
  Gen.V1_of m c r h

theorem W3_main_arg0 (c : Dev nD) : W3 m c (Proc.devRef .tc main_arg0) = m ((c : Thread nD τ).loc main_arg0) :=
  (W3_of_ne m c main_arg0 (by decide)).trans <|
    ((W2_arr m c 0).trans (((dat0 (V1 m) c).arrAt_in 0 rfl _).trans (A_eq0 (V1 m) c 0))).trans (W1_arg m c main_arg0 (by decide))
theorem W3_main_arg1 (c : Dev nD) : W3 m c (Proc.devRef .tc main_arg1) = m ((c : Thread nD τ).loc main_arg1) :=
  ((W3_arr m c 0).trans (((dat1 (V2 m) c).arrAt_in 0 rfl _).trans (A_eq1 (V2 m) c 0))).trans <|
    (W2_of_ne m c main_arg1 (by decide)).trans (W1_arg m c main_arg1 (by decide))
theorem W3_main_arg2 (c : Dev nD) : W3 m c (Proc.devRef .tc main_arg2) = m ((c : Thread nD τ).loc main_arg2) :=
  (W3_of_ne m c main_arg2 (by decide)).trans <| (W2_of_ne m c main_arg2 (by decide)).trans (W1_arg m c main_arg2 (by decide))
theorem W3_main_arg3 (c : Dev nD) : W3 m c (Proc.devRef .tc main_arg3) = m ((c : Thread nD τ).loc main_arg3) :=
  (W3_of_ne m c main_arg3 (by decide)).trans <| (W2_of_ne m c main_arg3 (by decide)).trans (W1_arg m c main_arg3 (by decide))
theorem W3_main_arg4 (c : Dev nD) : W3 m c (Proc.devRef .tc main_arg4) = m ((c : Thread nD τ).loc main_arg4) :=
  (W3_of_ne m c main_arg4 (by decide)).trans <| (W2_of_ne m c main_arg4 (by decide)).trans (W1_arg m c main_arg4 (by decide))
theorem W3_main_arg5 (c : Dev nD) : W3 m c (Proc.devRef .tc main_arg5) = m ((c : Thread nD τ).loc main_arg5) :=
  (W3_of_ne m c main_arg5 (by decide)).trans <| (W2_of_ne m c main_arg5 (by decide)).trans (W1_arg m c main_arg5 (by decide))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Both scratches
    enter the invariant out of the scoped rest, at whatever they hold, and go back to it at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (V2 m) c 0 from rfl,
      show (Pipeline.scopedRest (Pipeline.pin (pcfgs (F := F)) adm 1).spec c : sProp 𝕄) = _ from scopedRest1_eq (Ix := Unit) (Val := Elt F) (Name := ℕ) (U := UR sig nD τ) (Lvl := ℕ) c]
    unfold Φ1 R5
    simp only [owns_whole_eq]
    iintro ⟨Hp, -, ⟨H0, H1, H2, H3, H4, ⟨%fs0, Hs0⟩, ⟨%fs1, Hs1⟩⟩⟩
    isplitl [Hs0 Hs1]
    · iexists fs0, fs1
      isplitr; · ipureintro; exact Inv_zero (V2 m) c _ _
      isplitl [Hs0]
      · iexists fs0; isplitr; · ipureintro; rfl
        iexact Hs0
      · iexists fs1; isplitr; · ipureintro; rfl
        iexact Hs1
    isplitl [H0 H1 H2 H3 H4]
    · isplitl [H0]; · iexact H0
      isplitl [H1]; · iexact H1
      isplitl [H2]; · iexact H2
      isplitl [H3]; · iexact H3
      iexact H4
    iexact Hp
  hout c := by
    rw [Pipeline.ownSems0_none, show (pdats m 1 c).Φ (Fin.last _) = Φ1 (V2 m) c (Fin.last (Pipeline.pin (pcfgs (F := F)) adm 1).N).val from rfl,
      show (Pipeline.scopedRest (Pipeline.pin (pcfgs (F := F)) adm 1).spec c : sProp 𝕄) = _ from scopedRest1_eq (Ix := Unit) (Val := Elt F) (Name := ℕ) (U := UR sig nD τ) (Lvl := ℕ) c]
    unfold Φ1 R5
    simp only [owns_whole_eq]
    iintro ⟨⟨%xs0, %xs1, -, ⟨%fs0, -, Hs0⟩, ⟨%fs1, -, Hs1⟩⟩, ⟨H0, H1, H2, H3, H4⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [Hs0]; · iexists fs0; iexact Hs0
    iexists fs1; iexact Hs1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing
    faulting, and every final state holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.Kernel.Hand

end
-- ==== Proof.KernelIdeal.Region0.lean ====
/-
  Region 0 of the program: the product s1 = x · W1, two row blocks of 2048 rows.
  At a parameter `V` (the buffers' contents when the region is entered): each window's block at a
  grid point, what the body leaves in the output window's buffer (the one store, over the loaded
  blocks), the body's triple, the proof data and the body obligation.
-/
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix, fetched once, is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2048x512 := Rect.unit (s := S2048x512) ![0, 0] S2048x512.size inb_S2048x512_S2048x512_0_0
abbrev r0_w : Rect S512x512 := Rect.unit (s := S512x512) ![0, 0] S512x512.size inb_S512x512_S512x512_0_0

/-- What the body leaves in the output window's buffer: its one store, the product of the loaded
    row block with the loaded weights. -/
def out0_2 (x0 : Vec F S2048x512 .f32) (x1 : Vec F S512x512 .bf16) : Vec F S2048x512 .bf16 :=
  View.canon [⟨r0_x, k0_pay1 (View.ld x0 r0_x) (View.ld x1 r0_w)⟩]

theorem cover0_2 (p0 : Vec F S2048x512 .bf16) (y : S2048x512.Idx) :
    ∃ pc ∈ ([⟨r0_x, p0⟩] : List (View.Piece (Elt F) S2048x512 .bf16)), y ∈ pc.1.set :=
  View.cover_of_tiled [⟨r0_x, p0⟩] S2048x512.size (by rfl) y

set_option maxHeartbeats 1000000 in
/-- The body on whole staging memrefs: the inputs stay, the output holds `out0_2` of them. -/
theorem sound_kernel0 (c : Dev nD) (E : Set ℕ) (i : grid0.Coords) (arg1 : Memref sig .tc .vmem S2048x512 .f32) (harg1 : arg1.IsWhole)
    (arg2 : Memref sig .tc .vmem S512x512 .bf16) (harg2 : arg2.IsWhole) (arg3 : Memref sig .tc .vmem S2048x512 .bf16) (harg3 : arg3.IsWhole)
    (x0 : Vec F S2048x512 .f32) (x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__s1_body i arg1 harg1 arg2 harg2 arg3 harg3) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Body.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import Idealize.ShloMosaic.Lib.Pipeline.FrameBody
import Idealize.ShloMosaic.Lib.WritesUnit
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the two propagation phases over a grid of 2 × 8 points

Phase 0 (points 0–7, row block m = the point): the adjacency row block is converted and parked in the
first scratch (rows 512·m …), h1's row block is relu(adj_m · s1), and the second scratch receives
rows 512·m … of s2 = h1 · W2. Phase 1 (points 8–15, row block m = point − 8): h2's row block is
relu(adj_m · s2) with adj_m read back from the first scratch and s2 whole from the second, and z's row
block is h2_m · Wzᵀ + bz. -/

abbrev r1_a : Rect S512x4096 := Rect.unit (s := S512x4096) ![0, 0] S512x4096.size inb_S512x4096_S512x4096_0_0
abbrev r1_s1 : Rect S4096x512 := Rect.unit (s := S4096x512) ![0, 0] S4096x512.size inb_S4096x512_S4096x512_0_0
abbrev r1_w2 : Rect S512x256 := Rect.unit (s := S512x256) ![0, 0] S512x256.size inb_S512x256_S512x256_0_0
abbrev r1_wz : Rect S256x64 := Rect.unit (s := S256x64) ![0, 0] S256x64.size inb_S256x64_S256x64_0_0
abbrev r1_bz : Rect S1x64 := Rect.unit (s := S1x64) ![0, 0] S1x64.size inb_S1x64_S1x64_0_0
abbrev r1_h1 : Rect S512x512 := Rect.unit (s := S512x512) ![0, 0] S512x512.size inb_S512x512_S512x512_0_0
abbrev r1_h2 : Rect S512x256 := Rect.unit (s := S512x256) ![0, 0] S512x256.size inb_S512x256_S512x256_0_0
abbrev r1_z : Rect S512x64 := Rect.unit (s := S512x64) ![0, 0] S512x64.size inb_S512x64_S512x64_0_0
abbrev r1_s2 : Rect S4096x256 := Rect.unit (s := S4096x256) ![0, 0] S4096x256.size inb_S4096x256_S4096x256_0_0

/-- The h1 row block the body leaves: relu of the adjacency row block times s1. -/
def out1_5 (x0 : Vec F S512x4096 .f32) (x1 : Vec F S4096x512 .bf16) : Vec F S512x512 .f32 :=
  View.canon [⟨r1_h1, k1_pay3 (View.ld x0 r1_a) (View.ld x1 r1_s1)⟩]
/-- The h2 row block: relu of the parked adjacency row block times the whole of s2. -/
def out1_6 (v8 : Vec F S512x4096 .bf16) (v9 : Vec F S4096x256 .bf16) : Vec F S512x256 .f32 :=
  View.canon [⟨r1_h2, k1_pay5 v8 v9⟩]
/-- The z row block: that h2 row block times the transposed head weights, plus the bias row. -/
def out1_7 (v8 : Vec F S512x4096 .bf16) (v9 : Vec F S4096x256 .bf16) (x3 : Vec F S256x64 .bf16) (x4 : Vec F S1x64 .f32) : Vec F S512x64 .f32 :=
  View.canon [⟨r1_z, k1_pay6 v8 v9 (View.ld x3 r1_wz) (View.ld x4 r1_bz)⟩]

theorem cover1_5 (p0 : Vec F S512x512 .f32) (y : S512x512.Idx) :
    ∃ pc ∈ ([⟨r1_h1, p0⟩] : List (View.Piece (Elt F) S512x512 .f32)), y ∈ pc.1.set :=
  View.cover_of_tiled [⟨r1_h1, p0⟩] S512x512.size (by rfl) y
theorem cover1_6 (p0 : Vec F S512x256 .f32) (y : S512x256.Idx) :
    ∃ pc ∈ ([⟨r1_h2, p0⟩] : List (View.Piece (Elt F) S512x256 .f32)), y ∈ pc.1.set :=
  View.cover_of_tiled [⟨r1_h2, p0⟩] S512x256.size (by rfl) y
theorem cover1_7 (p0 : Vec F S512x64 .f32) (y : S512x64.Idx) :
    ∃ pc ∈ ([⟨r1_z, p0⟩] : List (View.Piece (Elt F) S512x64 .f32)), y ∈ pc.1.set :=
  View.cover_of_tiled [⟨r1_z, p0⟩] S512x64.size (by rfl) y

/-- A scratch of 4096 rows after rows 512·m … 512·m+511 were overwritten with a block `P`: the block on
    those rows, the old contents elsewhere. -/
def RowsSet {n : ℕ} {e : EltTy} (m : ℕ) (P : (⟨2, ![512, n]⟩ : Shape).Idx → Elt F e)
    (old new : (⟨2, ![4096, n]⟩ : Shape).Idx → Elt F e) : Prop :=
  (∀ (y : (⟨2, ![4096, n]⟩ : Shape).Idx) (x : (⟨2, ![512, n]⟩ : Shape).Idx),
      (y 0).val = 512 * m + (x 0).val → (y 1).val = (x 1).val → new y = P x)
  ∧ (∀ y : (⟨2, ![4096, n]⟩ : Shape).Idx, ((y 0).val < 512 * m ∨ 512 * m + 512 ≤ (y 0).val) → new y = old y)

set_option maxHeartbeats 600000 in
/-- PHASE 0 of the body on whole memrefs: the three inputs it reads stay, the h1 window holds `out1_5`, and
    each scratch has the point's rows overwritten (the adjacency block converted; the block of s2). -/
theorem sound_phase0 (c : Dev nD) (E : Set ℕ) (i : grid1.Coords)
    (arg2 : Memref sig .tc .vmem S512x4096 .f32) (harg2 : arg2.IsWhole) (arg3 : Memref sig .tc .vmem S4096x512 .bf16) (harg3 : arg3.IsWhole)
    (arg4 : Memref sig .tc .vmem S512x256 .bf16) (harg4 : arg4.IsWhole) (arg5 : Memref sig .tc .vmem S256x64 .bf16) (harg5 : arg5.IsWhole)
    (arg6 : Memref sig .tc .vmem S1x64 .f32) (harg6 : arg6.IsWhole) (arg7 : Memref sig .tc .vmem S512x512 .f32) (harg7 : arg7.IsWhole)
    (arg8 : Memref sig .tc .vmem S512x256 .f32) (harg8 : arg8.IsWhole) (arg9 : Memref sig .tc .vmem S512x64 .f32) (harg9 : arg9.IsWhole)
    (arg10 : Memref sig .tc .vmem S4096x4096 .bf16) (harg10 : arg10.IsWhole) (arg11 : Memref sig .tc .vmem S4096x256 .bf16) (harg11 : arg11.IsWhole)
    (hc1 : k1_cond1 i = 1#1) (hc2 : ¬ k1_cond2 i = 1#1)
    (x0 : Vec F S512x4096 .f32) (x1 : Vec F S4096x512 .bf16) (x2 : Vec F S512x256 .bf16)
    (xs0 : Vec F S4096x4096 .bf16) (xs1 : Vec F S4096x256 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg7 fullShare d) ∗ owns (c : Thread nD τ) arg10 fullShare xs0 ∗ owns (c : Thread nD τ) arg11 fullShare xs1
        ∗ (iprop(owns (c : Thread nD τ) arg2 fullShare x0 ∗ owns (c : Thread nD τ) arg3 fullShare x1 ∗ owns (c : Thread nD τ) arg4 fullShare x2
            ∗ owns (c : Thread nD τ) arg7 fullShare (out1_5 x0 x1)
            ∗ (∃ xs0' xs1', ⌜RowsSet (i 1).val (k1_pay2 (View.ld x0 r1_a)) xs0 xs0'
                  ∧ RowsSet (i 1).val (k1_pay4 (View.ld x0 r1_a) (View.ld x1 r1_s1) (View.ld x2 r1_w2)) xs1 xs1'⌝
                ∗ owns (c : Thread nD τ) arg10 fullShare xs0' ∗ owns (c : Thread nD τ) arg11 fullShare xs1')) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f0, %hf0, H0⟩, ⟨%f1, %hf1, H1⟩, ⟨%f2, %hf2, H2⟩, ⟨%d5, %f5, -, H5⟩, ⟨%fs0, %hfs0, HS0⟩, ⟨%fs1, %hfs1, HS1⟩, Hk⟩
  subst hf0; subst hf1; subst hf2; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    exact View.read_writes_eq_canon _ _ _ (cover1_5 _)
  iexists _, _
  isplitr
  swap
  · isplitl [HS0]
    · iexists _; isplitr
      swap; · iexact HS0
      ipureintro; rfl
    · iexists _; isplitr
      swap; · iexact HS1
      ipureintro; rfl
  ipureintro
  refine ⟨⟨fun y x h0 h1 => ?_, fun y h => ?_⟩, ⟨fun y x h0 h1 => ?_, fun y h => ?_⟩⟩
  · exact View.read_writes_cons_rows_of_mem arg10.view fs0 _ _ [] y x (k1_off1_eq i) h0 h1
  · exact View.read_writes_cons_rows_of_not_mem arg10.view fs0 _ _ [] y (k1_off1_eq i) rfl h
  · exact View.read_writes_cons_rows_of_mem arg11.view fs1 _ _ [] y x (k1_off2_eq i) h0 h1
  · exact View.read_writes_cons_rows_of_not_mem arg11.view fs1 _ _ [] y (k1_off2_eq i) rfl h

set_option maxHeartbeats 600000 in
/-- PHASE 1 of the body on whole memrefs: the inputs and both scratches stay, the h2 window holds `out1_6` and
    the z window `out1_7` of the point's rows of the first scratch and the whole second scratch. -/
theorem sound_phase1 (c : Dev nD) (E : Set ℕ) (i : grid1.Coords)
    (arg2 : Memref sig .tc .vmem S512x4096 .f32) (harg2 : arg2.IsWhole) (arg3 : Memref sig .tc .vmem S4096x512 .bf16) (harg3 : arg3.IsWhole)
    (arg4 : Memref sig .tc .vmem S512x256 .bf16) (harg4 : arg4.IsWhole) (arg5 : Memref sig .tc .vmem S256x64 .bf16) (harg5 : arg5.IsWhole)
    (arg6 : Memref sig .tc .vmem S1x64 .f32) (harg6 : arg6.IsWhole) (arg7 : Memref sig .tc .vmem S512x512 .f32) (harg7 : arg7.IsWhole)
    (arg8 : Memref sig .tc .vmem S512x256 .f32) (harg8 : arg8.IsWhole) (arg9 : Memref sig .tc .vmem S512x64 .f32) (harg9 : arg9.IsWhole)
    (arg10 : Memref sig .tc .vmem S4096x4096 .bf16) (harg10 : arg10.IsWhole) (arg11 : Memref sig .tc .vmem S4096x256 .bf16) (harg11 : arg11.IsWhole)
    (hc1 : ¬ k1_cond1 i = 1#1) (hc2 : k1_cond2 i = 1#1)
    (x3 : Vec F S256x64 .bf16) (x4 : Vec F S1x64 .f32)
    (xs0 : Vec F S4096x4096 .bf16) (xs1 : Vec F S4096x256 .bf16) (K : PUnit → sProp 𝕄) :
    iprop(owns (c : Thread nD τ) arg5 fullShare x3 ∗ owns (c : Thread nD τ) arg6 fullShare x4
        ∗ (∃ d, owns (c : Thread nD τ) arg8 fullShare d) ∗ (∃ d, owns (c : Thread nD τ) arg9 fullShare d)
        ∗ owns (c : Thread nD τ) arg10 fullShare xs0 ∗ owns (c : Thread nD τ) arg11 fullShare xs1
        ∗ (iprop(owns (c : Thread nD τ) arg5 fullShare x3 ∗ owns (c : Thread nD τ) arg6 fullShare x4
            ∗ owns (c : Thread nD τ) arg8 fullShare (out1_6 (View.ld xs0 (Rect.unit (s := S4096x4096) (k1_off3 i) S512x4096.size (Facts₀.k1_off3_inb i hc2))) (View.ld xs1 r1_s2))
            ∗ owns (c : Thread nD τ) arg9 fullShare (out1_7 (View.ld xs0 (Rect.unit (s := S4096x4096) (k1_off3 i) S512x4096.size (Facts₀.k1_off3_inb i hc2))) (View.ld xs1 r1_s2) x3 x4)
            ∗ owns (c : Thread nD τ) arg10 fullShare xs0 ∗ owns (c : Thread nD τ) arg11 fullShare xs1) -∗ K ⟨⟩))
      ⊢ wp frame (wpE (defs₀ (F := F)) Variants.none c none) E (cc1__prop_body i arg2 harg2 arg3 harg3 arg4 harg4 arg5 harg5 arg6 harg6 arg7 harg7 arg8 harg8 arg9 harg9 arg10 harg10 arg11 harg11) K := by
  simp only [cc1__prop_body_eq_skeleton]; unfold cc1__prop_body_skel
  unfold owns
  iintro ⟨⟨%f3, %hf3, H3⟩, ⟨%f4, %hf4, H4⟩, ⟨%d6, %f6, -, H6⟩, ⟨%d7, %f7, -, H7⟩, ⟨%fs0, %hfs0, HS0⟩, ⟨%fs1, %hfs1, HS1⟩, Hk⟩
  subst hf3; subst hf4; subst hfs0; subst hfs1
  sl_exec (disch := first | exact hc1 | exact hc2)
  sl_step
  iapply Hk
  isplitl [H3]
  · iexists f3; isplitr; · ipureintro; rfl
    iexact H3
  isplitl [H4]
  · iexists f4; isplitr; · ipureintro; rfl
    iexact H4
  isplitl [H6]
  · iexists _; isplitr
    swap; · iexact H6
    ipureintro
    exact View.read_writes_eq_canon _ _ _ (cover1_6 _)
  isplitl [H7]
  · iexists _; isplitr
    swap; · iexact H7
    ipureintro
    exact View.read_writes_eq_canon _ _ _ (cover1_7 _)
  isplitl [HS0]
  · iexists fs0; isplitr; · ipureintro; rfl
    iexact HS0
  · iexists fs1; isplitr; · ipureintro; rfl
    iexact HS1

end Cert.KernelIdeal.Hand

end
-- ==== Proof.KernelIdeal.Region1Data.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Region1Body
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2 idx2_lt0 idx2_lt1)

variable (V : (c : Dev nD) → (b : Ref sig .tc) → Buf (Elt F) ((c : Thread nD τ).loc b))

/-! ## The schedule of region 1, decided over its 16 points -/

theorem N1 : cfg1.N = 16 := N_1
theorem cond1_iff : ∀ t : Fin cfg1.N, k1_cond1 (cfg1.grid.coords t) = 1#1 ↔ t.val < 8 :=
  (by decide +kernel : ∀ t : Fin grid1.N, k1_cond1 (grid1.coords t) = 1#1 ↔ t.val < 8)
theorem cond2_iff : ∀ t : Fin cfg1.N, k1_cond2 (cfg1.grid.coords t) = 1#1 ↔ 8 ≤ t.val :=
  (by decide +kernel : ∀ t : Fin grid1.N, k1_cond2 (grid1.coords t) = 1#1 ↔ 8 ≤ t.val)
theorem coord1_eq : ∀ t : Fin cfg1.N, ((cfg1.grid.coords t) 1).val = t.val % 8 :=
  (by decide +kernel : ∀ t : Fin grid1.N, ((grid1.coords t) 1).val = t.val % 8)
theorem idle5_eq : ∀ t : Fin cfg1.N, cfg1.idle 5 (cfg1.grid.coords t) = decide (8 ≤ t.val) :=
  (by decide +kernel : ∀ t : Fin grid1.N, idle1 5 (grid1.coords t) = decide (8 ≤ t.val))
theorem idle6_eq : ∀ t : Fin cfg1.N, cfg1.idle 6 (cfg1.grid.coords t) = decide (t.val < 8) :=
  (by decide +kernel : ∀ t : Fin grid1.N, idle1 6 (grid1.coords t) = decide (t.val < 8))
theorem idle7_eq : ∀ t : Fin cfg1.N, cfg1.idle 7 (cfg1.grid.coords t) = decide (t.val < 8) :=
  (by decide +kernel : ∀ t : Fin grid1.N, idle1 7 (grid1.coords t) = decide (t.val < 8))
theorem flush5_eq : ∀ t : Fin cfg1.N, (cfg1.win 5).flush t = decide (t.val < 7 ∨ t.val = 15) :=
  (by decide +kernel : ∀ t : Fin grid1.N, win1_5.flush t = decide (t.val < 7 ∨ t.val = 15))
theorem flush6_eq : ∀ t : Fin cfg1.N, (cfg1.win 6).flush t = decide (8 ≤ t.val) :=
  (by decide +kernel : ∀ t : Fin grid1.N, win1_6.flush t = decide (8 ≤ t.val))
theorem flush7_eq : ∀ t : Fin cfg1.N, (cfg1.win 7).flush t = decide (8 ≤ t.val) :=
  (by decide +kernel : ∀ t : Fin grid1.N, win1_7.flush t = decide (8 ≤ t.val))

/-- The point of phase 0 that handles the same row block as `t`. -/
def lo (t : Fin cfg1.N) : Fin cfg1.N := ⟨t.val % 8, lt_of_lt_of_eq (by omega : t.val % 8 < 16) N1.symm⟩
/-- The last point at or before `t` whose body stored into the h1 window. -/
def clamp7 (t : Fin cfg1.N) : Fin cfg1.N := ⟨min t.val 7, lt_of_lt_of_eq (by omega : min t.val 7 < 16) N1.symm⟩

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The adjacency row block the window holds at point `t`. -/
def X0 (c : Dev nD) (t : Fin cfg1.N) : Vec F S512x4096 .f32 := iblk1 V c 0 t
/-- s1, the second-layer weights, the transposed head weights and the bias row: one block each, whatever the point. -/
def S1v (c : Dev nD) : Vec F S4096x512 .bf16 := iblk1 V c 1 t1_0
def W2v (c : Dev nD) : Vec F S512x256 .bf16 := iblk1 V c 2 t1_0
def Wzv (c : Dev nD) : Vec F S256x64 .bf16 := iblk1 V c 3 t1_0
def Bzv (c : Dev nD) : Vec F S1x64 .f32 := iblk1 V c 4 t1_0

theorem iblk1_1_eq (c : Dev nD) (t : Fin cfg1.N) : iblk1 V c 1 t = S1v V c := rfl
theorem iblk1_2_eq (c : Dev nD) (t : Fin cfg1.N) : iblk1 V c 2 t = W2v V c := rfl
theorem iblk1_3_eq (c : Dev nD) (t : Fin cfg1.N) : iblk1 V c 3 t = Wzv V c := rfl
theorem iblk1_4_eq (c : Dev nD) (t : Fin cfg1.N) : iblk1 V c 4 t = Bzv V c := rfl

/-- The adjacency row block of point `t` as parked in the first scratch, and the rows of s2 it produces. -/
def Abf (c : Dev nD) (t : Fin cfg1.N) : Vec F S512x4096 .bf16 := k1_pay2 (View.ld (X0 V c t) r1_a)
def S2b (c : Dev nD) (t : Fin cfg1.N) : Vec F S512x256 .bf16 :=
  k1_pay4 (View.ld (X0 V c t) r1_a) (View.ld (S1v V c) r1_s1) (View.ld (W2v V c) r1_w2)

/-- Row r of a 4096-row scratch belongs to the block of point r / 512, at local row r % 512. -/
def rowBlk {n : ℕ} (j : (⟨2, ![4096, n]⟩ : Shape).Idx) : Fin cfg1.N :=
  ⟨(j 0).val / 512, lt_of_lt_of_eq (by have := idx2_lt0 j; omega : (j 0).val / 512 < 16) N1.symm⟩
def rowLoc {n : ℕ} (j : (⟨2, ![4096, n]⟩ : Shape).Idx) : (⟨2, ![512, n]⟩ : Shape).Idx :=
  ix2 ⟨(j 0).val % 512, Nat.mod_lt _ (by norm_num)⟩ ⟨(j 1).val, idx2_lt1 j⟩

/-- What the two scratches hold once phase 0 is over: every adjacency row block converted; all of s2. -/
def A0 (c : Dev nD) : Vec F S4096x4096 .bf16 := fun j => Abf V c (rowBlk j) (rowLoc j)
def A1 (c : Dev nD) : Vec F S4096x256 .bf16 := fun j => S2b V c (rowBlk j) (rowLoc j)

/-- Before point `n` the scratches hold those contents on the rows of the blocks already handled. -/
def Inv (c : Dev nD) (n : ℕ) (xs0 : Vec F S4096x4096 .bf16) (xs1 : Vec F S4096x256 .bf16) : Prop :=
  (∀ j : S4096x4096.Idx, (j 0).val < 512 * min n 8 → xs0 j = A0 V c j)
  ∧ (∀ j : S4096x256.Idx, (j 0).val < 512 * min n 8 → xs1 j = A1 V c j)

theorem Inv_zero (c : Dev nD) (xs0 : Vec F S4096x4096 .bf16) (xs1 : Vec F S4096x256 .bf16) : Inv V c 0 xs0 xs1 :=
  ⟨fun j h => absurd h (by omega), fun j h => absurd h (by omega)⟩

/-- One step of phase 0: the point's rows overwritten with its blocks extend the invariant by one block. -/
theorem Inv_step (c : Dev nD) (t : Fin cfg1.N) (ht : t.val < 8) (m : ℕ) (hm : m = t.val)
    (xs0 xs0' : Vec F S4096x4096 .bf16) (xs1 xs1' : Vec F S4096x256 .bf16) (h : Inv V c t.val xs0 xs1)
    (h0 : RowsSet m (Abf V c t) xs0 xs0') (h1 : RowsSet m (S2b V c t) xs1 xs1') : Inv V c (t.val + 1) xs0' xs1' := by
  subst hm
  have hmin : min t.val 8 = t.val := by omega
  have hmin' : min (t.val + 1) 8 = t.val + 1 := by omega
  refine ⟨fun j hj => ?_, fun j hj => ?_⟩
  · rw [hmin'] at hj
    by_cases hlt : (j 0).val < 512 * t.val
    · rw [h0.2 j (.inl hlt)]; exact h.1 j (by rw [hmin]; exact hlt)
    · rw [h0.1 j (rowLoc j) (by show (j 0).val = 512 * t.val + (j 0).val % 512; omega) rfl]
      have hb : rowBlk j = t := Fin.ext (by show (j 0).val / 512 = t.val; omega)
      show _ = Abf V c (rowBlk j) (rowLoc j)
      rw [hb]
  · rw [hmin'] at hj
    by_cases hlt : (j 0).val < 512 * t.val
    · rw [h1.2 j (.inl hlt)]; exact h.2 j (by rw [hmin]; exact hlt)
    · rw [h1.1 j (rowLoc j) (by show (j 0).val = 512 * t.val + (j 0).val % 512; omega) rfl]
      have hb : rowBlk j = t := Fin.ext (by show (j 0).val / 512 = t.val; omega)
      show _ = S2b V c (rowBlk j) (rowLoc j)
      rw [hb]

/-- In phase 1 the invariant names both scratches whole, and does not change. -/
theorem Inv_full (c : Dev nD) (n : ℕ) (hn : 8 ≤ n) (xs0 : Vec F S4096x4096 .bf16) (xs1 : Vec F S4096x256 .bf16)
    (h : Inv V c n xs0 xs1) : xs0 = A0 V c ∧ xs1 = A1 V c := by
  have hmin : min n 8 = 8 := by omega
  exact ⟨funext fun j => h.1 j (by rw [hmin]; have := idx2_lt0 j; omega), funext fun j => h.2 j (by rw [hmin]; have := idx2_lt0 j; omega)⟩
theorem Inv_succ_of_full (c : Dev nD) (n : ℕ) (hn : 8 ≤ n) (xs0 : Vec F S4096x4096 .bf16) (xs1 : Vec F S4096x256 .bf16)
    (h : Inv V c n xs0 xs1) : Inv V c (n + 1) xs0 xs1 := by
  have hmin : min n 8 = 8 := by omega
  have hmin' : min (n + 1) 8 = 8 := by omega
  unfold Inv at h ⊢; rw [hmin'] ; rw [hmin] at h; exact h

/-- The point's rows of the filled first scratch are its adjacency row block, converted. -/
theorem ld_A0 (c : Dev nD) (t : Fin cfg1.N) (off : Fin 2 → ℕ) (hoff : off = ![512 * (t.val % 8), 0])
    (inb : ∀ a, off a + S512x4096.size a ≤ S4096x4096.size a) :
    View.ld (A0 V c) (Rect.unit (s := S4096x4096) off S512x4096.size inb) = Abf V c (lo t) := by
  subst hoff
  funext x
  show Abf V c (rowBlk ((Rect.unit (s := S4096x4096) _ S512x4096.size inb).idx x)) (rowLoc ((Rect.unit (s := S4096x4096) _ S512x4096.size inb).idx x)) = _
  have hx0 : (x 0).val < 512 := idx2_lt0 x
  have hb : rowBlk ((Rect.unit (s := S4096x4096) ![512 * (t.val % 8), 0] S512x4096.size inb).idx x) = lo t :=
    Fin.ext (by show (512 * (t.val % 8) + 1 * (x 0).val) / 512 = t.val % 8; omega)
  have hl : rowLoc ((Rect.unit (s := S4096x4096) ![512 * (t.val % 8), 0] S512x4096.size inb).idx x) = x := by
    funext a
    match a with
    | ⟨0, _⟩ => exact Fin.ext (by show (512 * (t.val % 8) + 1 * (x 0).val) % 512 = (x 0).val; omega)
    | ⟨1, _⟩ => exact Fin.ext (by show (0 + 1 * (x 1).val) = (x 1).val; omega)
  rw [hb, hl]

end Cert.KernelIdeal.Hand

end
-- ==== Proof.KernelIdeal.Region1Dat.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Region1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2 idx2_lt0 idx2_lt1)

variable (V : (c : Dev nD) → (b : Ref sig .tc) → Buf (Elt F) ((c : Thread nD τ).loc b))

/-! ## The proof data of region 1 -/

/-- The first region's staging buffers, which this region leaves alone. -/
def R5 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: both scratches held whole at contents that satisfy `Inv`, the other scoped
    buffers at anything, the generator register at some state. -/
def Φ1 (c : Dev nD) (n : ℕ) : sProp 𝕄 :=
  iprop((∃ (xs0 : Vec F S4096x4096 .bf16) (xs1 : Vec F S4096x256 .bf16), ⌜Inv V c n xs0 xs1⌝
      ∗ owns (c : Thread nD τ) (Memref.whole cc1_scratch0) fullShare xs0 ∗ owns (c : Thread nD τ) (Memref.whole cc1_scratch1) fullShare xs1)
    ∗ R5 (F := F) c ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (X0 V c (clamp7 t)) (S1v V c)
    | ⟨6, _⟩ => out1_6 (Abf V c (lo t)) (View.ld (A1 V c) r1_s2)
    | ⟨7, _⟩ => out1_7 (Abf V c (lo t)) (View.ld (A1 V c) r1_s2) (Wzv V c) (Bzv V c)
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (X0 V c (clamp7 t)) (S1v V c) := by dsimp only [dat1]
theorem after1_6 (c : Dev nD) (t : Fin cfg1.N) : (dat1 V c).after 6 t = out1_6 (Abf V c (lo t)) (View.ld (A1 V c) r1_s2) := by dsimp only [dat1]
theorem after1_7 (c : Dev nD) (t : Fin cfg1.N) : (dat1 V c).after 7 t = out1_7 (Abf V c (lo t)) (View.ld (A1 V c) r1_s2) (Wzv V c) (Bzv V c) := by dsimp only [dat1]

theorem before1_0 (c : Dev nD) (t : Fin cfg1.N) (d) : (dat1 V c).before 0 t d = X0 V c t :=
  before1_0_of V (dat1 V c) (A_eq1 V c 0) (after1_0 V c) t d
theorem before1_1 (c : Dev nD) (t : Fin cfg1.N) (d) : (dat1 V c).before 1 t d = S1v V c :=
  before1_1_of V (dat1 V c) (A_eq1 V c 1) (after1_1 V c) t d
theorem before1_2 (c : Dev nD) (t : Fin cfg1.N) (d) : (dat1 V c).before 2 t d = W2v V c :=
  before1_2_of V (dat1 V c) (A_eq1 V c 2) (after1_2 V c) t d
theorem before1_3 (c : Dev nD) (t : Fin cfg1.N) (d) : (dat1 V c).before 3 t d = Wzv V c :=
  before1_3_of V (dat1 V c) (A_eq1 V c 3) (after1_3 V c) t d
theorem before1_4 (c : Dev nD) (t : Fin cfg1.N) (d) : (dat1 V c).before 4 t d = Bzv V c :=
  before1_4_of V (dat1 V c) (A_eq1 V c 4) (after1_4 V c) t d

/-- After a point that does not write the h1 block back, the next point finds what that point left. -/
theorem before1_5_step (c : Dev nD) (k : ℕ) (hk : k < cfg1.N) (h : k + 1 < cfg1.N) (hk7 : 7 ≤ k) (hk14 : k + 1 ≤ 15) (d) :
    (dat1 V c).before 5 ⟨k + 1, h⟩ d = (dat1 V c).left 5 ⟨k, hk⟩ d := by
  rw [(dat1 V c).before_of_pos 5 ⟨k + 1, h⟩ (Nat.succ_ne_zero k) rfl d]
  split
  · next hfl =>
    exact absurd ((flush5_eq _).symm.trans hfl) (by simp only [decide_eq_true_eq, Nat.add_sub_cancel]; omega)
  · rfl

/-- The h1 window through phase 1: its buffer still holds the last row block of h1, stored at point 7 and
    not written back since (the block index does not move), whatever it held before. -/
theorem before1_5_late (c : Dev nD) (k : ℕ) (hk7 : 7 ≤ k) (h : k + 1 < cfg1.N) (d) :
    (dat1 V c).before 5 ⟨k + 1, h⟩ d = out1_5 (X0 V c (clamp7 ⟨7, lt_of_lt_of_eq (by omega : 7 < 16) N1.symm⟩)) (S1v V c) := by
  induction k, hk7 using Nat.le_induction with
  | base =>
    rw [before1_5_step V c 7 (lt_of_lt_of_eq (by omega : 7 < 16) N1.symm) h (le_refl _) (by omega) d]
    unfold Dat.left
    split
    · next heq => exact absurd ((idle5_eq _).symm.trans heq) (by simp)
    · unfold Dat.kept
      rw [Pipeline.fill_of_clip_none 5 _ (fun _ => rfl) d ((dat1 V c).after 5 _), Window.fill_cut, after1_5]
  | succ k hk ih =>
    have h16 : k + 1 + 1 < 16 := lt_of_lt_of_eq h N1
    rw [before1_5_step V c (k + 1) (lt_of_lt_of_eq (by omega : k + 1 < 16) N1.symm) h (by omega) (by omega) d]
    unfold Dat.left
    split
    · exact ih _
    · next heq => exact absurd ((idle5_eq _).symm.trans heq) (by simp only [decide_eq_false_iff_not, not_not]; show 8 ≤ k + 1; omega)

end Cert.KernelIdeal.Hand

end
-- ==== Proof.KernelIdeal.Region1.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Region1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation of region 1 -/

abbrev sc0 : Memref sig .tc .vmem S4096x4096 .bf16 := Memref.whole cc1_scratch0
abbrev sc1 : Memref sig .tc .vmem S4096x256 .bf16 := Memref.whole cc1_scratch1

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns in phase 0: the h1 window at its row block, the h2 and z windows as found. -/
def bodyPostA (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (∃ d, owns (c : Thread nD τ) (st1_6 t) fullShare ((dat1 V c).before 6 t d))
    ∗ (∃ d, owns (c : Thread nD τ) (st1_7 t) fullShare ((dat1 V c).before 7 t d)))

/-- What it returns in phase 1, the h1 window at `P5`: as found, or — at the last point, which writes it
    back — at the row block it has held since point 7. -/
def bodyPostB (c : Dev nD) (t : Fin cfg1.N) (P5 : sProp 𝕄) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ P5
    ∗ owns (c : Thread nD τ) (st1_6 t) fullShare ((dat1 V c).after 6 t)
    ∗ owns (c : Thread nD τ) (st1_7 t) fullShare ((dat1 V c).after 7 t))

theorem after1_0' (c : Dev nD) (t : Fin cfg1.N) : (dat1 V c).after 0 t = X0 V c t := after1_0 V c t
theorem after1_1' (c : Dev nD) (t : Fin cfg1.N) : (dat1 V c).after 1 t = S1v V c := after1_1 V c t
theorem after1_2' (c : Dev nD) (t : Fin cfg1.N) : (dat1 V c).after 2 t = W2v V c := after1_2 V c t
theorem after1_3' (c : Dev nD) (t : Fin cfg1.N) : (dat1 V c).after 3 t = Wzv V c := after1_3 V c t
theorem after1_4' (c : Dev nD) (t : Fin cfg1.N) : (dat1 V c).after 4 t = Bzv V c := after1_4 V c t

set_option maxHeartbeats 800000 in
theorem sound_body1A (c : Dev nD) (t : Fin cfg1.N) (ht : t.val < 8) :
    bodyPre1 V c t ⊢ wp frame (wpE (defs₀ (F := F)) Variants.none c none) Set.univ (bodyAt1 t) (fun _ => bodyPostA V c t) := by
  have hc1 : k1_cond1 (grid1.coords t) = 1#1 := (cond1_iff t).mpr ht
  have hc2 : ¬ k1_cond2 (grid1.coords t) = 1#1 := fun h => absurd ((cond2_iff t).mp h) (by omega)
  have hcl : clamp7 t = t := Fin.ext (by show min t.val 7 = t.val; omega)
  have hm : ((grid1.coords t) 1).val = t.val := (coord1_eq t).trans (Nat.mod_eq_of_lt ht)
  unfold bodyPre1 bodyPostA bodyAt1
  simp only [before1_0, before1_1, before1_2, before1_3, before1_4, after1_0', after1_1', after1_2', after1_3', after1_4']
  rw [show (dat1 V c).Φ t.castSucc = Φ1 V c t.val from rfl, show (dat1 V c).Φ t.succ = Φ1 V c (t.val + 1) from rfl,
    show (dat1 V c).owesAt () t.succ = (dat1 V c).owesAt () t.castSucc from rfl, after1_5, hcl]
  unfold Φ1
  iintro ⟨⟨⟨%xs0, %xs1, %hinv, HS0, HS1⟩, HR, Hp⟩, Ho, ⟨%d0, H0⟩, ⟨%d1, H1⟩, ⟨%d2, H2⟩, ⟨%d3, H3⟩, ⟨%d4, H4⟩, ⟨%d5, H5⟩, H6, H7⟩
  iapply (sound_phase0 c Set.univ (grid1.coords t) _ _ _ _ _ _ _ _ _ _ _ _ _ _ _ _ _ _ _ _ hc1 hc2 (X0 V c t) (S1v V c) (W2v V c) xs0 xs1 _)
  isplitl [H0]; · iexact H0
  isplitl [H1]; · iexact H1
  isplitl [H2]; · iexact H2
  isplitl [H5]; · iexists _; iexact H5
  isplitl [HS0]; · iexact HS0
  isplitl [HS1]; · iexact HS1
  iintro ⟨H0, H1, H2, H5, ⟨%xs0', %xs1', %hupd, HS0, HS1⟩⟩
  isplitl [HS0 HS1 HR Hp]
  · isplitl [HS0 HS1]
    · iexists xs0', xs1'
      isplitr
      · ipureintro
        exact Inv_step V c t ht _ hm xs0 xs0' xs1 xs1' hinv hupd.1 hupd.2
      isplitl [HS0]; · iexact HS0
      iexact HS1
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 800000 in
theorem sound_body1B (c : Dev nD) (t : Fin cfg1.N) (ht : 8 ≤ t.val) (P5 : sProp 𝕄)
    (h5 : (iprop(∃ d, owns (c : Thread nD τ) (st1_5 t) fullShare ((dat1 V c).before 5 t d)) : sProp 𝕄) ⊢ P5) :
    bodyPre1 V c t ⊢ wp frame (wpE (defs₀ (F := F)) Variants.none c none) Set.univ (bodyAt1 t) (fun _ => bodyPostB V c t P5) := by
  have hc1 : ¬ k1_cond1 (grid1.coords t) = 1#1 := fun h => absurd ((cond1_iff t).mp h) (by omega)
  have hc2 : k1_cond2 (grid1.coords t) = 1#1 := (cond2_iff t).mpr ht
  have hoff : k1_off3 (grid1.coords t) = ![512 * (t.val % 8), 0] := by rw [k1_off3_eq, coord1_eq]
  unfold bodyPre1 bodyPostB bodyAt1
  simp only [before1_0, before1_1, before1_2, before1_3, before1_4, after1_0', after1_1', after1_2', after1_3', after1_4']
  rw [show (dat1 V c).Φ t.castSucc = Φ1 V c t.val from rfl, show (dat1 V c).Φ t.succ = Φ1 V c (t.val + 1) from rfl,
    show (dat1 V c).owesAt () t.succ = (dat1 V c).owesAt () t.castSucc from rfl, after1_6, after1_7,
    ← ld_A0 V c t (k1_off3 (grid1.coords t)) hoff (Facts₀.k1_off3_inb (grid1.coords t) hc2)]
  unfold Φ1
  iintro ⟨⟨⟨%xs0, %xs1, %hinv, HS0, HS1⟩, HR, Hp⟩, Ho, ⟨%d0, H0⟩, ⟨%d1, H1⟩, ⟨%d2, H2⟩, ⟨%d3, H3⟩, ⟨%d4, H4⟩, H5, ⟨%d6, H6⟩, ⟨%d7, H7⟩⟩
  obtain ⟨rfl, rfl⟩ := Inv_full V c t.val ht xs0 xs1 hinv
  iapply (sound_phase1 c Set.univ (grid1.coords t) _ _ _ _ _ _ _ _ _ _ _ _ _ _ _ _ _ _ _ _ hc1 hc2 (Wzv V c) (Bzv V c) (A0 V c) (A1 V c) _)
  isplitl [H3]; · iexact H3
  isplitl [H4]; · iexact H4
  isplitl [H6]; · iexists _; iexact H6
  isplitl [H7]; · iexists _; iexact H7
  isplitl [HS0]; · iexact HS0
  isplitl [HS1]; · iexact HS1
  iintro ⟨H3, H4, H6, H7, HS0, HS1⟩
  isplitl [HS0 HS1 HR Hp]
  · isplitl [HS0 HS1]
    · iexists (A0 V c), (A1 V c)
      isplitr
      · ipureintro
        exact Inv_succ_of_full V c t.val ht _ _ hinv
      isplitl [HS0]; · iexact HS0
      iexact HS1
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iapply h5; iexact H5
  isplitl [H6]; · iexact H6
  iexact H7

set_option maxHeartbeats 800000 in
/-- The library's body obligation, at every point. -/
theorem body_obligation1 (c : Dev nD) : BodyObligation (dat1 (F := F) V c) (defs₀ (F := F)) Variants.none () Set.univ := fun t => by
  rw [bigSep_W1, bigSep_W1]
  have i0 : idle1 0 (grid1.coords t) = false := rfl
  have i1 : idle1 1 (grid1.coords t) = false := rfl
  have i2 : idle1 2 (grid1.coords t) = false := rfl
  have i3 : idle1 3 (grid1.coords t) = false := rfl
  have i4 : idle1 4 (grid1.coords t) = false := rfl
  by_cases ht : t.val < 8
  · have i5 : idle1 5 (grid1.coords t) = false := (idle5_eq t).trans (decide_eq_false (by omega))
    have i6 : idle1 6 (grid1.coords t) = true := (idle6_eq t).trans (decide_eq_true ht)
    have i7 : idle1 7 (grid1.coords t) = true := (idle7_eq t).trans (decide_eq_true ht)
    have f6 : (win1 6).flush t = false := (flush6_eq t).trans (decide_eq_false (by omega))
    have f7 : (win1 7).flush t = false := (flush7_eq t).trans (decide_eq_false (by omega))
    simp only [i0, i1, i2, i3, i4, i5, i6, i7, f6, f7]
    exact sound_body1A V c t ht
  · have ht8 : 8 ≤ t.val := by omega
    have i6 : idle1 6 (grid1.coords t) = false := (idle6_eq t).trans (decide_eq_false (by omega))
    have i7 : idle1 7 (grid1.coords t) = false := (idle7_eq t).trans (decide_eq_false (by omega))
    have i5 : idle1 5 (grid1.coords t) = true := (idle5_eq t).trans (decide_eq_true ht8)
    by_cases h15 : t.val = 15
    · have f5 : (win1 5).flush t = true := (flush5_eq t).trans (decide_eq_true (.inr h15))
      simp only [i0, i1, i2, i3, i4, i5, i6, i7, f5]
      refine sound_body1B V c t ht8 _ ?_
      have hb : ∀ d, (dat1 V c).before 5 t d = (dat1 V c).after 5 t := fun d => by
        obtain ⟨n, hn⟩ := t
        obtain rfl : n = 14 + 1 := h15
        rw [before1_5_late V c 14 (by omega) hn d, after1_5]
        rfl
      simp only [hb]
      iintro ⟨%d, H⟩
      iexact H
    · have f5 : (win1 5).flush t = false := (flush5_eq t).trans (decide_eq_false (by have := lt_of_lt_of_eq t.isLt N1; omega))
      simp only [i0, i1, i2, i3, i4, i5, i6, i7, f5]
      exact sound_body1B V c t ht8 _ .rfl

end Cert.KernelIdeal.Hand

end
-- ==== Proof.KernelIdeal.Arrays.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Region0
import proofs.«139762_g57612691309227_cont_sun_m_451_20_alg».proof.Proof.KernelIdeal.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2 idx2_lt0 idx2_lt1)

variable (V : (c : Dev nD) → (b : Ref sig .tc) → Buf (Elt F) ((c : Thread nD τ).loc b))

/-! # From blocks to arrays: what each output array holds after its region, as one function

Each output array is tiled by row blocks, and the block a point writes back is a function of the point's
row-block number alone; so the array ends at the function that sends row r to the entry of the block
r / (rows per block) at local row r % (rows per block). -/

/-! ## Region 0: s1 -/

theorem N0 : cfg0.N = 2 := N_0
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

def XB (c : Dev nD) (t : Fin cfg0.N) : Vec F S2048x512 .f32 := iblk0 V c 0 t
def W1v (c : Dev nD) : Vec F S512x512 .bf16 := iblk0 V c 1 t0_0
theorem iblk0_1_eq (c : Dev nD) (t : Fin cfg0.N) : iblk0 V c 1 t = W1v V c := rfl

def rowBlk0 (j : S4096x512.Idx) : Fin cfg0.N :=
  ⟨(j 0).val / 2048, lt_of_lt_of_eq (by have := idx2_lt0 j; omega : (j 0).val / 2048 < 2) N0.symm⟩
def rowLoc0 (j : S4096x512.Idx) : S2048x512.Idx :=
  ix2 ⟨(j 0).val % 2048, Nat.mod_lt _ (by norm_num)⟩ ⟨(j 1).val, idx2_lt1 j⟩

/-- What the s1 array holds after region 0. -/
def G0 (c : Dev nD) : S4096x512.Idx → Elt F .bf16 := fun j => out0_2 (XB V c (rowBlk0 j)) (W1v V c) (rowLoc0 j)

theorem flushed0_2_eq (c : Dev nD) (t : Fin cfg0.N) :
    (dat0 V c).flushed 2 t = ((cfg0.win 2).blk t).view.read (Elt F) (G0 V c) := by
  show (cfg0.win 2).cut (grid0.coords t) ((dat0 V c).after 2 t) = _
  rw [after0_2, iblk0_1_eq]
  obtain ⟨e0, e1⟩ := idx0_2 t
  have key : ∀ y : S2048x512.Idx, out0_2 (XB V c t) (W1v V c) y = G0 V c (((cfg0.win 2).blk t).view.emb y) := fun y => by
    unfold G0
    have hy0 : (y 0).val < 2048 := idx2_lt0 y
    have hb : rowBlk0 (((cfg0.win 2).blk t).view.emb y) = t :=
      Fin.ext (by show (win0_2.index t (0 : Fin 2) * 2048 + 1 * (y 0).val) / 2048 = t.val; omega)
    have hl : rowLoc0 (((cfg0.win 2).blk t).view.emb y) = y := by
      funext a
      match a with
      | ⟨0, _⟩ => exact Fin.ext (by show (win0_2.index t (0 : Fin 2) * 2048 + 1 * (y 0).val) % 2048 = (y 0).val; omega)
      | ⟨1, _⟩ => exact Fin.ext (by show (win0_2.index t (1 : Fin 2) * 512 + 1 * (y 1).val) = (y 1).val; omega)
    rw [hb, hl]
  show (cfg0.win 2).cut (grid0.coords t) (out0_2 (XB V c t) (W1v V c)) = _
  generalize out0_2 (XB V c t) (W1v V c) = X at key ⊢
  generalize G0 V c = G at key ⊢
  funext y
  exact key y

theorem mem_blk0_2 (t : Fin cfg0.N) (i : S4096x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_call0_v5).slice (win0_2.rect t)).set ↔ _
  rw [View.set_slice_whole, Rect.mem_set_unit]
  exact Iff.rfl

theorem final0_2 (c : Dev nD) : (dat0 V c).arrAt 2 cfg0.N = G0 V c :=
  (dat0 V c).arrAt_eq_of_cover 2 (G0 V c) (fun t _ => flushed0_2_eq V c t) (fun i => by
    have hi0 : (i 0).val < 4096 := idx2_lt0 (n0 := 4096) (n1 := 512) i
    have hi1 : (i 1).val < 512 := idx2_lt1 (n0 := 4096) (n1 := 512) i
    refine ⟨rowBlk0 i, flush0_2 _, ?_⟩
    rw [mem_blk0_2]
    obtain ⟨e0, e1⟩ := idx0_2 (rowBlk0 i)
    have e0' : win0_2.index (rowBlk0 i) (0 : Fin 2) = (i 0).val / 2048 := e0
    intro a
    match a with
    | ⟨0, _⟩ => show win0_2.index (rowBlk0 i) (0 : Fin 2) * 2048 ≤ (i 0).val ∧ (i 0).val < win0_2.index (rowBlk0 i) (0 : Fin 2) * 2048 + 2048; omega
    | ⟨1, _⟩ => show win0_2.index (rowBlk0 i) (1 : Fin 2) * 512 ≤ (i 1).val ∧ (i 1).val < win0_2.index (rowBlk0 i) (1 : Fin 2) * 512 + 512; omega)

/-! ## Region 1: h1, h2, z -/

theorem idx1_5 : ∀ t : Fin cfg1.N, win1_5.index t (0 : Fin 2) = min t.val 7 ∧ win1_5.index t (1 : Fin 2) = 0 :=
  (by decide +kernel : ∀ t : Fin grid1.N, win1_5.index t (0 : Fin 2) = min t.val 7 ∧ win1_5.index t (1 : Fin 2) = 0)
theorem idx1_6 : ∀ t : Fin cfg1.N, win1_6.index t (0 : Fin 2) = t.val - 8 ∧ win1_6.index t (1 : Fin 2) = 0 :=
  (by decide +kernel : ∀ t : Fin grid1.N, win1_6.index t (0 : Fin 2) = t.val - 8 ∧ win1_6.index t (1 : Fin 2) = 0)
theorem idx1_7 : ∀ t : Fin cfg1.N, win1_7.index t (0 : Fin 2) = t.val - 8 ∧ win1_7.index t (1 : Fin 2) = 0 :=
  (by decide +kernel : ∀ t : Fin grid1.N, win1_7.index t (0 : Fin 2) = t.val - 8 ∧ win1_7.index t (1 : Fin 2) = 0)

/-- What the h1, h2 and z arrays hold after region 1. -/
def G5 (c : Dev nD) : S4096x512.Idx → Elt F .f32 := fun j => out1_5 (X0 V c (rowBlk j)) (S1v V c) (rowLoc j)
def G6 (c : Dev nD) : S4096x256.Idx → Elt F .f32 := fun j => out1_6 (Abf V c (rowBlk j)) (View.ld (A1 V c) r1_s2) (rowLoc j)
def G7 (c : Dev nD) : S4096x64.Idx → Elt F .f32 :=
  fun j => out1_7 (Abf V c (rowBlk j)) (View.ld (A1 V c) r1_s2) (Wzv V c) (Bzv V c) (rowLoc j)

theorem flushed1_5_eq (c : Dev nD) (t : Fin cfg1.N) :
    (dat1 V c).flushed 5 t = ((cfg1.win 5).blk t).view.read (Elt F) (G5 V c) := by
  show (cfg1.win 5).cut (grid1.coords t) ((dat1 V c).after 5 t) = _
  rw [after1_5]
  obtain ⟨e0, e1⟩ := idx1_5 t
  have key : ∀ y : S512x512.Idx, out1_5 (X0 V c (clamp7 t)) (S1v V c) y = G5 V c (((cfg1.win 5).blk t).view.emb y) := fun y => by
    unfold G5
    have hy0 : (y 0).val < 512 := idx2_lt0 y
    have hb : rowBlk (((cfg1.win 5).blk t).view.emb y) = clamp7 t :=
      Fin.ext (by show (win1_5.index t (0 : Fin 2) * 512 + 1 * (y 0).val) / 512 = min t.val 7; omega)
    have hl : rowLoc (((cfg1.win 5).blk t).view.emb y) = y := by
      funext a
      match a with
      | ⟨0, _⟩ => exact Fin.ext (by show (win1_5.index t (0 : Fin 2) * 512 + 1 * (y 0).val) % 512 = (y 0).val; omega)
      | ⟨1, _⟩ => exact Fin.ext (by show (win1_5.index t (1 : Fin 2) * 512 + 1 * (y 1).val) = (y 1).val; omega)
    rw [hb, hl]
  generalize out1_5 (X0 V c (clamp7 t)) (S1v V c) = X at key ⊢
  generalize G5 V c = G at key ⊢
  funext y
  exact key y

theorem flushed1_6_eq (c : Dev nD) (t : Fin cfg1.N) (hf : (cfg1.win 6).flush t = true) :
    (dat1 V c).flushed 6 t = ((cfg1.win 6).blk t).view.read (Elt F) (G6 V c) := by
  have ht : 8 ≤ t.val := of_decide_eq_true ((flush6_eq t).symm.trans hf)
  have ht16 : t.val < 16 := lt_of_lt_of_eq t.isLt N1
  show (cfg1.win 6).cut (grid1.coords t) ((dat1 V c).after 6 t) = _
  rw [after1_6]
  obtain ⟨e0, e1⟩ := idx1_6 t
  have key : ∀ y : S512x256.Idx, out1_6 (Abf V c (lo t)) (View.ld (A1 V c) r1_s2) y = G6 V c (((cfg1.win 6).blk t).view.emb y) := fun y => by
    unfold G6
    have hy0 : (y 0).val < 512 := idx2_lt0 y
    have hb : rowBlk (((cfg1.win 6).blk t).view.emb y) = lo t :=
      Fin.ext (by show (win1_6.index t (0 : Fin 2) * 512 + 1 * (y 0).val) / 512 = t.val % 8; omega)
    have hl : rowLoc (((cfg1.win 6).blk t).view.emb y) = y := by
      funext a
      match a with
      | ⟨0, _⟩ => exact Fin.ext (by show (win1_6.index t (0 : Fin 2) * 512 + 1 * (y 0).val) % 512 = (y 0).val; omega)
      | ⟨1, _⟩ => exact Fin.ext (by show (win1_6.index t (1 : Fin 2) * 256 + 1 * (y 1).val) = (y 1).val; omega)
    rw [hb, hl]
  generalize out1_6 (Abf V c (lo t)) (View.ld (A1 V c) r1_s2) = X at key ⊢
  generalize G6 V c = G at key ⊢
  funext y
  exact key y

theorem flushed1_7_eq (c : Dev nD) (t : Fin cfg1.N) (hf : (cfg1.win 7).flush t = true) :
    (dat1 V c).flushed 7 t = ((cfg1.win 7).blk t).view.read (Elt F) (G7 V c) := by
  have ht : 8 ≤ t.val := of_decide_eq_true ((flush7_eq t).symm.trans hf)
  have ht16 : t.val < 16 := lt_of_lt_of_eq t.isLt N1
  show (cfg1.win 7).cut (grid1.coords t) ((dat1 V c).after 7 t) = _
  rw [after1_7]
  obtain ⟨e0, e1⟩ := idx1_7 t
  have key : ∀ y : S512x64.Idx, out1_7 (Abf V c (lo t)) (View.ld (A1 V c) r1_s2) (Wzv V c) (Bzv V c) y = G7 V c (((cfg1.win 7).blk t).view.emb y) := fun y => by
    unfold G7
    have hy0 : (y 0).val < 512 := idx2_lt0 y
    have hb : rowBlk (((cfg1.win 7).blk t).view.emb y) = lo t :=
      Fin.ext (by show (win1_7.index t (0 : Fin 2) * 512 + 1 * (y 0).val) / 512 = t.val % 8; omega)
    have hl : rowLoc (((cfg1.win 7).blk t).view.emb y) = y := by
      funext a
      match a with
      | ⟨0, _⟩ => exact Fin.ext (by show (win1_7.index t (0 : Fin 2) * 512 + 1 * (y 0).val) % 512 = (y 0).val; omega)
      | ⟨1, _⟩ => exact Fin.ext (by show (win1_7.index t (1 : Fin 2) * 64 + 1 * (y 1).val) = (y 1).val; omega)
    rw [hb, hl]
  generalize out1_7 (Abf V c (lo t)) (View.ld (A1 V c) r1_s2) (Wzv V c) (Bzv V c) = X at key ⊢
  generalize G7 V c = G at key ⊢
  funext y
  exact key y

theorem mem_blk1_5 (t : Fin cfg1.N) (i : S4096x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v0_0).slice (win1_5.rect t)).set ↔ _
  rw [View.set_slice_whole, Rect.mem_set_unit]
  exact Iff.rfl
theorem mem_blk1_6 (t : Fin cfg1.N) (i : S4096x256.Idx) :
    i ∈ ((cfg1.win 6).blk t).view.set ↔ ∀ a : Fin 2, win1_6.index t a * S512x256.size a ≤ (i a).val ∧ (i a).val < win1_6.index t a * S512x256.size a + S512x256.size a := by
  show i ∈ ((View.whole main_v0_1).slice (win1_6.rect t)).set ↔ _
  rw [View.set_slice_whole, Rect.mem_set_unit]
  exact Iff.rfl
theorem mem_blk1_7 (t : Fin cfg1.N) (i : S4096x64.Idx) :
    i ∈ ((cfg1.win 7).blk t).view.set ↔ ∀ a : Fin 2, win1_7.index t a * S512x64.size a ≤ (i a).val ∧ (i a).val < win1_7.index t a * S512x64.size a + S512x64.size a := by
  show i ∈ ((View.whole main_v0_2).slice (win1_7.rect t)).set ↔ _
  rw [View.set_slice_whole, Rect.mem_set_unit]
  exact Iff.rfl

/-- The point that writes back the h1 block of row block b: point b itself, but for the last block, written back
    at the very end. -/
def pt5 (b : ℕ) (hb : b < 8) : Fin cfg1.N :=
  ⟨if b < 7 then b else 15, lt_of_lt_of_eq (by split <;> omega : (if b < 7 then b else 15) < 16) N1.symm⟩
/-- The point of phase 1 that handles row block b. -/
def pt1 (b : ℕ) (hb : b < 8) : Fin cfg1.N := ⟨b + 8, lt_of_lt_of_eq (by omega : b + 8 < 16) N1.symm⟩

theorem final1_5 (c : Dev nD) : (dat1 V c).arrAt 5 cfg1.N = G5 V c :=
  (dat1 V c).arrAt_eq_of_cover 5 (G5 V c) (fun t _ => flushed1_5_eq V c t) (fun i => by
    have hi0 : (i 0).val < 4096 := idx2_lt0 (n0 := 4096) (n1 := 512) i
    have hi1 : (i 1).val < 512 := idx2_lt1 (n0 := 4096) (n1 := 512) i
    have hb8 : (i 0).val / 512 < 8 := by omega
    refine ⟨pt5 ((i 0).val / 512) hb8, (flush5_eq _).trans (decide_eq_true (by show (if (i 0).val / 512 < 7 then (i 0).val / 512 else 15) < 7 ∨ (if (i 0).val / 512 < 7 then (i 0).val / 512 else 15) = 15; split <;> omega)), ?_⟩
    rw [mem_blk1_5]
    obtain ⟨e0, e1⟩ := idx1_5 (pt5 ((i 0).val / 512) hb8)
    have e0' : win1_5.index (pt5 ((i 0).val / 512) hb8) (0 : Fin 2) = min (if (i 0).val / 512 < 7 then (i 0).val / 512 else 15) 7 := e0
    intro a
    match a with
    | ⟨0, _⟩ =>
      show win1_5.index (pt5 ((i 0).val / 512) hb8) (0 : Fin 2) * 512 ≤ (i 0).val ∧ (i 0).val < win1_5.index (pt5 ((i 0).val / 512) hb8) (0 : Fin 2) * 512 + 512
      rw [e0']; split <;> omega
    | ⟨1, _⟩ =>
      show win1_5.index (pt5 ((i 0).val / 512) hb8) (1 : Fin 2) * 512 ≤ (i 1).val ∧ (i 1).val < win1_5.index (pt5 ((i 0).val / 512) hb8) (1 : Fin 2) * 512 + 512
      omega)

theorem final1_6 (c : Dev nD) : (dat1 V c).arrAt 6 cfg1.N = G6 V c :=
  (dat1 V c).arrAt_eq_of_cover 6 (G6 V c) (fun t hf => flushed1_6_eq V c t hf) (fun i => by
    have hi0 : (i 0).val < 4096 := idx2_lt0 (n0 := 4096) (n1 := 256) i
    have hi1 : (i 1).val < 256 := idx2_lt1 (n0 := 4096) (n1 := 256) i
    have hb8 : (i 0).val / 512 < 8 := by omega
    refine ⟨pt1 ((i 0).val / 512) hb8, (flush6_eq _).trans (decide_eq_true (by show 8 ≤ (i 0).val / 512 + 8; omega)), ?_⟩
    rw [mem_blk1_6]
    obtain ⟨e0, e1⟩ := idx1_6 (pt1 ((i 0).val / 512) hb8)
    have e0' : win1_6.index (pt1 ((i 0).val / 512) hb8) (0 : Fin 2) = (i 0).val / 512 + 8 - 8 := e0
    intro a
    match a with
    | ⟨0, _⟩ =>
      show win1_6.index (pt1 ((i 0).val / 512) hb8) (0 : Fin 2) * 512 ≤ (i 0).val ∧ (i 0).val < win1_6.index (pt1 ((i 0).val / 512) hb8) (0 : Fin 2) * 512 + 512
      omega
    | ⟨1, _⟩ =>
      show win1_6.index (pt1 ((i 0).val / 512) hb8) (1 : Fin 2) * 256 ≤ (i 1).val ∧ (i 1).val < win1_6.index (pt1 ((i 0).val / 512) hb8) (1 : Fin 2) * 256 + 256
      omega)

theorem final1_7 (c : Dev nD) : (dat1 V c).arrAt 7 cfg1.N = G7 V c :=
  (dat1 V c).arrAt_eq_of_cover 7 (G7 V c) (fun t hf => flushed1_7_eq V c t hf) (fun i => by
    have hi0 : (i 0).val < 4096 := idx2_lt0 (n0 := 4096) (n1 := 64) i
    have hi1 : (i 1).val < 64 := idx2_lt1 (n0 := 4096) (n1 := 64) i
    have hb8 : (i 0).val / 512 < 8 := by omega
    refine ⟨pt1 ((i 0).val / 512) hb8, (flush7_eq _).trans (decide_eq_true (by show 8 ≤ (i 0).val / 512 + 8; omega)), ?_⟩
    rw [mem_blk1_7]
    obtain ⟨e0, e1⟩ := idx1_7 (pt1 ((i 0).val / 512) hb8)
    have e0' : win1_7.index (pt1 ((i 0).val / 512) hb8) (0 : Fin 2) = (i 0).val / 512 + 8 - 8 := e0
    intro a
    match a with
    | ⟨0, _⟩ =>
      show win1_7.index (pt1 ((i 0).val / 512) hb8) (0 : Fin 2) * 512 ≤ (i 0).val ∧ (i 0).val < win1_7.index (pt1 ((i 0).val / 512) hb8) (0 : Fin 2) * 512 + 512
      omega
    | ⟨1, _⟩ =>
      show win1_7.index (pt1 ((i 0).val / 512) hb8) (1 : Fin 2) * 64 ≤ (i 1).val ∧ (i 1).val < win1_7.index (pt1 ((i 0).val / 512) hb8) (1 : Fin 2) * 64 + 64
      omega)

end Cert.KernelIdeal.Hand

end
-- ==== Proof.KernelIdeal.Run.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Region0
import proofs.«139762_g57612691309227_cont_sun_m_451_20_alg».proof.Proof.KernelIdeal.Region1
import proofs.«139762_g57612691309227_cont_sun_m_451_20_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the host stretch, region 0, region 1

## The buffers' contents at each boundary -/

/-- At launch, and after the host stretch (region 0's entry): the generated valuations. -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- At region 0's exit (region 1's entry): its arrays at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W1_arg (c : Dev nD) (r : Ref sig .tc) (h : r ∉ Gen.hostOps0_W) : W1 m c (Proc.devRef .tc r) = m ((c : Thread nD τ).loc r) :=
  Gen.V1_of m c r h

theorem W3_main_arg0 (c : Dev nD) : W3 m c (Proc.devRef .tc main_arg0) = m ((c : Thread nD τ).loc main_arg0) :=
  (W3_of_ne m c main_arg0 (by decide)).trans <|
    ((W2_arr m c 0).trans (((dat0 (V1 m) c).arrAt_in 0 rfl _).trans (A_eq0 (V1 m) c 0))).trans (W1_arg m c main_arg0 (by decide))
theorem W3_main_arg1 (c : Dev nD) : W3 m c (Proc.devRef .tc main_arg1) = m ((c : Thread nD τ).loc main_arg1) :=
  ((W3_arr m c 0).trans (((dat1 (V2 m) c).arrAt_in 0 rfl _).trans (A_eq1 (V2 m) c 0))).trans <|
    (W2_of_ne m c main_arg1 (by decide)).trans (W1_arg m c main_arg1 (by decide))
theorem W3_main_arg2 (c : Dev nD) : W3 m c (Proc.devRef .tc main_arg2) = m ((c : Thread nD τ).loc main_arg2) :=
  (W3_of_ne m c main_arg2 (by decide)).trans <| (W2_of_ne m c main_arg2 (by decide)).trans (W1_arg m c main_arg2 (by decide))
theorem W3_main_arg3 (c : Dev nD) : W3 m c (Proc.devRef .tc main_arg3) = m ((c : Thread nD τ).loc main_arg3) :=
  (W3_of_ne m c main_arg3 (by decide)).trans <| (W2_of_ne m c main_arg3 (by decide)).trans (W1_arg m c main_arg3 (by decide))
theorem W3_main_arg4 (c : Dev nD) : W3 m c (Proc.devRef .tc main_arg4) = m ((c : Thread nD τ).loc main_arg4) :=
  (W3_of_ne m c main_arg4 (by decide)).trans <| (W2_of_ne m c main_arg4 (by decide)).trans (W1_arg m c main_arg4 (by decide))
theorem W3_main_arg5 (c : Dev nD) : W3 m c (Proc.devRef .tc main_arg5) = m ((c : Thread nD τ).loc main_arg5) :=
  (W3_of_ne m c main_arg5 (by decide)).trans <| (W2_of_ne m c main_arg5 (by decide)).trans (W1_arg m c main_arg5 (by decide))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Both scratches
    enter the invariant out of the scoped rest, at whatever they hold, and go back to it at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (V2 m) c 0 from rfl,
      show (Pipeline.scopedRest (Pipeline.pin (pcfgs (F := F)) adm 1).spec c : sProp 𝕄) = _ from scopedRest1_eq (Ix := Unit) (Val := Elt F) (Name := ℕ) (U := UR sig nD τ) (Lvl := ℕ) c]
    unfold Φ1 R5
    simp only [owns_whole_eq]
    iintro ⟨Hp, -, ⟨H0, H1, H2, H3, H4, ⟨%fs0, Hs0⟩, ⟨%fs1, Hs1⟩⟩⟩
    isplitl [Hs0 Hs1]
    · iexists fs0, fs1
      isplitr; · ipureintro; exact Inv_zero (V2 m) c _ _
      isplitl [Hs0]
      · iexists fs0; isplitr; · ipureintro; rfl
        iexact Hs0
      · iexists fs1; isplitr; · ipureintro; rfl
        iexact Hs1
    isplitl [H0 H1 H2 H3 H4]
    · isplitl [H0]; · iexact H0
      isplitl [H1]; · iexact H1
      isplitl [H2]; · iexact H2
      isplitl [H3]; · iexact H3
      iexact H4
    iexact Hp
  hout c := by
    rw [Pipeline.ownSems0_none, show (pdats m 1 c).Φ (Fin.last _) = Φ1 (V2 m) c (Fin.last (Pipeline.pin (pcfgs (F := F)) adm 1).N).val from rfl,
      show (Pipeline.scopedRest (Pipeline.pin (pcfgs (F := F)) adm 1).spec c : sProp 𝕄) = _ from scopedRest1_eq (Ix := Unit) (Val := Elt F) (Name := ℕ) (U := UR sig nD τ) (Lvl := ℕ) c]
    unfold Φ1 R5
    simp only [owns_whole_eq]
    iintro ⟨⟨%xs0, %xs1, -, ⟨%fs0, -, Hs0⟩, ⟨%fs1, -, Hs1⟩⟩, ⟨H0, H1, H2, H3, H4⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [Hs0]; · iexists fs0; iexact Hs0
    iexists fs1; iexact Hs1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters, every weakly fair execution of @main terminates, nothing
    faulting, and every final state holds each unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.KernelIdeal.Hand

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«139762_g57612691309227_cont_sun_m_451_20_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibMatProd.lean ====
/-
  The product of two matrices as a whole matrix on the extended reals, for any extents: entry `(r, g)` of `A · B` is
  the sum over `k` of `A (r, k) · B (k, g)`.  A host program's plain `dot_general` is this matrix, and a kernel body's
  plain matrix product into the zero accumulator is this entry by entry.  Entry `(r, g)` reads row `r` of `A` and column
  `g` of `B` only.
-/
import proofs.«139762_g57612691309227_cont_sun_m_451_20_alg».proof.Proof.LibPlainMatmul
import proofs.«139762_g57612691309227_cont_sun_m_451_20_alg».proof.Proof.LibPlainDot

noncomputable section

open scoped BigOperators

namespace Cert.LibMatProd

open Idealize.ShloMosaic Idealize.ShloMosaic.ValueIdx

variable {R K N : ℕ}

/-- Entry `(r, g)` of the product. -/
def prodAt (A : (⟨2, ![R, K]⟩ : Shape).Idx → EReal) (B : (⟨2, ![K, N]⟩ : Shape).Idx → EReal) (r : Fin R) (g : Fin N) : EReal :=
  ∑ k : Fin K, A (ix2 r k) * B (ix2 k g)

/-- The product as a whole matrix. -/
def prod (A : (⟨2, ![R, K]⟩ : Shape).Idx → EReal) (B : (⟨2, ![K, N]⟩ : Shape).Idx → EReal) :
    (⟨2, ![R, N]⟩ : Shape).Idx → EReal :=
  fun i => prodAt A B (i 0) (i 1)

theorem prod_apply (A : (⟨2, ![R, K]⟩ : Shape).Idx → EReal) (B : (⟨2, ![K, N]⟩ : Shape).Idx → EReal) (r : Fin R) (g : Fin N) :
    prod A B (ix2 r g) = prodAt A B r g := rfl

/-- The host's plain product is the whole matrix. -/
theorem host_prod_eq (A : FVec Ideal ⟨2, ![R, K]⟩ .f32) (B : FVec Ideal ⟨2, ![K, N]⟩ .f32) :
    Host.dotGeneral (DotDims.plain R K N) none A B = prod A B := by
  funext i
  obtain ⟨r, g, rfl⟩ : ∃ (r : Fin R) (g : Fin N), i = ix2 r g := ⟨i 0, i 1, eq_ix2 i⟩
  exact Cert.LibPlainDot.dotGeneral_apply none A B r g

/-- A kernel body's plain product into the zero accumulator, at an entry. -/
theorem matmul_prodAt {φ₁ φ₂ : FTy} (prec : Option ContractPrecision) (A : FVec Ideal ⟨2, ![R, K]⟩ φ₁)
    (B : FVec Ideal ⟨2, ![K, N]⟩ φ₂) (r : Fin R) (g : Fin N) :
    FloatOps.matmul (DotDims.plain R K N) prec A B (constant ⟨2, ![R, N]⟩ .f32 0x00000000#32) (ix2 r g) = prodAt A B r g :=
  Cert.LibPlainMatmul.matmul_zero_apply prec A B r g

/-- An entry of the product reads one row of the left factor and one column of the right one. -/
theorem prodAt_congr {R' N' : ℕ} (A : (⟨2, ![R, K]⟩ : Shape).Idx → EReal) (B : (⟨2, ![K, N]⟩ : Shape).Idx → EReal)
    (A' : (⟨2, ![R', K]⟩ : Shape).Idx → EReal) (B' : (⟨2, ![K, N']⟩ : Shape).Idx → EReal) (r : Fin R) (g : Fin N)
    (r' : Fin R') (g' : Fin N') (hA : ∀ k : Fin K, A (ix2 r k) = A' (ix2 r' k)) (hB : ∀ k : Fin K, B (ix2 k g) = B' (ix2 k g')) :
    prodAt A B r g = prodAt A' B' r' g' := by
  unfold prodAt
  exact Finset.sum_congr rfl fun k _ => by rw [hA k, hB k]

end Cert.LibMatProd

end
-- ==== Proof.Payload.lean ====
/-
  The mathematics of the encoder on the extended reals, and the kernel bodies' arithmetic read at an entry.
  h1 = relu(adj · (x · W1)), h2 = relu(adj · (h1 · W2)), z = h2 · Wzᵀ + bz: every product a plain matrix product
  (an entry is the sum over k of row entry times column entry), relu the maximum with zero. At this instance a
  change of float format is the identity, so the bf16 operands of the kernel's products are the f32 values.
-/
import proofs.«139762_g57612691309227_cont_sun_m_451_20_alg».proof.Proof.Gen.KernelIdeal.Skeleton
import proofs.«139762_g57612691309227_cont_sun_m_451_20_alg».proof.Proof.LibMatProd
import Idealize.ShloMosaic.Lib.Pipeline.Value
import Idealize.ShloMosaic.Lib.ValueIdx

set_option maxRecDepth 16384

noncomputable section

open scoped BigOperators

namespace Cert.Spec

open Idealize.ShloMosaic Idealize.ShloMosaic.ValueIdx Cert.LibMatProd

/-- The zero the programs compare against: the f32 word 0, never evaluated (both programs spell it so). -/
abbrev Z0 : EReal := Ideal.ofBits .f32 0x00000000#32

/-- relu, entry by entry. -/
def relu {S : Shape} (M : S.Idx → EReal) : S.Idx → EReal := fun i => max (M i) Z0

variable (adj : (⟨2, ![4096, 4096]⟩ : Shape).Idx → EReal) (x : (⟨2, ![4096, 512]⟩ : Shape).Idx → EReal)
  (w1 : (⟨2, ![512, 512]⟩ : Shape).Idx → EReal) (w2 : (⟨2, ![512, 256]⟩ : Shape).Idx → EReal)
  (wz : (⟨2, ![64, 256]⟩ : Shape).Idx → EReal) (bz : (⟨1, ![64]⟩ : Shape).Idx → EReal)

def S1 : (⟨2, ![4096, 512]⟩ : Shape).Idx → EReal := prod x w1
def H1 : (⟨2, ![4096, 512]⟩ : Shape).Idx → EReal := relu (prod adj (S1 x w1))
def S2 : (⟨2, ![4096, 256]⟩ : Shape).Idx → EReal := prod (H1 adj x w1) w2
def H2 : (⟨2, ![4096, 256]⟩ : Shape).Idx → EReal := relu (prod adj (S2 adj x w1 w2))
/-- The head weights transposed. -/
def WzT : (⟨2, ![256, 64]⟩ : Shape).Idx → EReal := fun i => wz (ix2 (i 1) (i 0))
def Zo : (⟨2, ![4096, 64]⟩ : Shape).Idx → EReal := fun i => prod (H2 adj x w1 w2) (WzT wz) i + bz (ix1 (i 1))

end Cert.Spec

namespace Cert.KernelIdeal.Pay

open Cert.KernelIdeal Cert.KernelIdeal.Gen Idealize.ShloMosaic Idealize.ShloMosaic.ValueIdx Cert.LibMatProd Cert.Spec

/-- Region 0's stored value at an entry: the product of the loaded row block with the loaded weights. -/
theorem pay0_1 (v0 : Vec Ideal S2048x512 .f32) (v2 : Vec Ideal S512x512 .bf16) (p : Fin 2048) (q : Fin 512) :
    k0_pay1 (F := Ideal) v0 v2 (ix2 p q) = prodAt v0 v2 p q := by
  show FloatOps.matmul (F := Ideal) (φ₁ := .bf16) (φ₂ := .bf16) (DotDims.plain 2048 512 512) none v0 (shapeCast S512x512 (v2 : S512x512.Idx → Ideal .bf16) _) (constant (F := Ideal) ⟨2, ![2048, 512]⟩ .f32 0x00000000#32) (ix2 p q) = _
  rw [shapeCast_self, matmul_prodAt]

/-- The converted adjacency block is the adjacency block. -/
theorem pay1_2 (v6 : Vec Ideal S512x4096 .f32) : k1_pay2 (F := Ideal) v6 = v6 := by
  show shapeCast S512x4096 (v6 : S512x4096.Idx → Ideal .f32) _ = v6
  rw [shapeCast_self]

/-- h1's row block at an entry. -/
theorem pay1_3 (v6 : Vec Ideal S512x4096 .f32) (v13 : Vec Ideal S4096x512 .bf16) (p : Fin 512) (q : Fin 512) :
    k1_pay3 (F := Ideal) v6 v13 (ix2 p q) = max (prodAt v6 v13 p q) Z0 := by
  show max (FloatOps.matmul (F := Ideal) (φ₁ := .bf16) (φ₂ := .bf16) (DotDims.plain 512 4096 512) none v6 (shapeCast S4096x512 (v13 : S4096x512.Idx → Ideal .bf16) _) (constant (F := Ideal) ⟨2, ![512, 512]⟩ .f32 0x00000000#32) (ix2 p q)) Z0 = _
  rw [shapeCast_self, matmul_prodAt]

/-- The rows of s2 a phase-0 point produces, at an entry. -/
theorem pay1_4 (v6 : Vec Ideal S512x4096 .f32) (v13 : Vec Ideal S4096x512 .bf16) (v20 : Vec Ideal S512x256 .bf16) (p : Fin 512) (q : Fin 256) :
    k1_pay4 (F := Ideal) v6 v13 v20 (ix2 p q) = prodAt (k1_pay3 (F := Ideal) v6 v13) v20 p q := by
  show shapeCast S512x256 (fun i : S512x256.Idx => FloatOps.matmul (F := Ideal) (φ₁ := .bf16) (φ₂ := .bf16) (DotDims.plain 512 512 256) none (k1_pay3 (F := Ideal) v6 v13) (shapeCast S512x256 (v20 : S512x256.Idx → Ideal .bf16) _) (constant (F := Ideal) ⟨2, ![512, 256]⟩ .f32 0x00000000#32) i) _ (ix2 p q) = _
  rw [shapeCast_self, shapeCast_self, matmul_prodAt]

/-- h2's row block at an entry. -/
theorem pay1_5 (v8 : Vec Ideal S512x4096 .bf16) (v9 : Vec Ideal S4096x256 .bf16) (p : Fin 512) (q : Fin 256) :
    k1_pay5 (F := Ideal) v8 v9 (ix2 p q) = max (prodAt v8 v9 p q) Z0 := by
  show max (FloatOps.matmul (F := Ideal) (φ₁ := .bf16) (φ₂ := .bf16) (DotDims.plain 512 4096 256) none v8 v9 (constant (F := Ideal) ⟨2, ![512, 256]⟩ .f32 0x00000000#32) (ix2 p q)) Z0 = _
  rw [matmul_prodAt]

/-- z's row block at an entry. -/
theorem pay1_6 (v8 : Vec Ideal S512x4096 .bf16) (v9 : Vec Ideal S4096x256 .bf16) (v15 : Vec Ideal S256x64 .bf16) (v18 : Vec Ideal S1x64 .f32)
    (p : Fin 512) (q : Fin 64) :
    k1_pay6 (F := Ideal) v8 v9 v15 v18 (ix2 p q) = prodAt (k1_pay5 (F := Ideal) v8 v9) v15 p q + v18 (ix2 0 q) := by
  show FloatOps.matmul (F := Ideal) (φ₁ := .bf16) (φ₂ := .bf16) (DotDims.plain 512 256 64) none (k1_pay5 (F := Ideal) v8 v9) (shapeCast S256x64 (v15 : S256x64.Idx → Ideal .bf16) _) (constant (F := Ideal) ⟨2, ![512, 64]⟩ .f32 0x00000000#32) (ix2 p q)
      + broadcastTo S512x64 (shapeCast S1x64 (v18 : S1x64.Idx → Ideal .f32) _) _ (ix2 p q) = _
  rw [shapeCast_self, shapeCast_self, matmul_prodAt]
  congr 1
  exact broadcastTo_apply v18 _ (ix2 p q) (ix2 0 q) (fun a => match a with
    | ⟨0, _⟩ => by show (0 : ℕ) = if (1 : ℕ) = 1 then 0 else p.val; rw [if_pos rfl]
    | ⟨1, _⟩ => by show q.val = if (64 : ℕ) = 1 then 0 else q.val; rw [if_neg (by decide)])

end Cert.KernelIdeal.Pay

end
-- ==== Proof.Bridge1.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.KernelIdeal.Arrays
import proofs.«139762_g57612691309227_cont_sun_m_451_20_alg».proof.Proof.KernelIdeal.Run
import proofs.«139762_g57612691309227_cont_sun_m_451_20_alg».proof.Proof.Payload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix2 eq_ix2 idx2_lt0 idx2_lt1)
open Cert.LibMatProd Cert.Spec Cert.KernelIdeal.Pay

/-! # What the windows read, entry by entry -/

section Reads

variable (V : (c : Dev nD) → (b : Ref sig .tc) → Buf (Elt F) ((c : Thread nD τ).loc b))

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1_0 : ∀ t : Fin cfg1.N, win1_0.index t (0 : Fin 2) = min t.val 7 ∧ win1_0.index t (1 : Fin 2) = 0 :=
  (by decide +kernel : ∀ t : Fin grid1.N, win1_0.index t (0 : Fin 2) = min t.val 7 ∧ win1_0.index t (1 : Fin 2) = 0)

/-- Region 0's row block of x at point t is rows 2048·t … of x. -/
theorem XB_apply (c : Dev nD) (t : Fin cfg0.N) (p : Fin 2048) (k : Fin 512) (r : Fin 4096) (hr : r.val = 2048 * t.val + p.val) :
    XB V c t (ix2 p k) = V c main_arg0 (ix2 r k) := by
  obtain ⟨e0, e1⟩ := idx0_0 t
  show V c (Pipeline.arrRef spec0 0) (((cfg0.win 0).blk t).view.emb (ix2 p k)) = _
  refine congrArg (V c main_arg0) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- Region 1's adjacency row block at point t is rows 512·min(t,7) … of the adjacency. -/
theorem X0_apply (c : Dev nD) (t : Fin cfg1.N) (p : Fin 512) (k : Fin 4096) (r : Fin 4096) (hr : r.val = 512 * min t.val 7 + p.val) :
    X0 V c t (ix2 p k) = V c main_arg1 (ix2 r k) := by
  obtain ⟨e0, e1⟩ := idx1_0 t
  show V c (Pipeline.arrRef spec1 0) (((cfg1.win 0).blk t).view.emb (ix2 p k)) = _
  refine congrArg (V c main_arg1) (funext fun a => Fin.ext ?_)
  match a with
  | ⟨0, _⟩ => show win1_0.index t (0 : Fin 2) * 512 + 1 * p.val = r.val; omega
  | ⟨1, _⟩ => show win1_0.index t (1 : Fin 2) * 4096 + 1 * k.val = k.val; omega

/-- The whole-array windows read their arrays. -/
theorem W1v_apply (c : Dev nD) (i : S512x512.Idx) : W1v V c i = V c main_call0_v0 i := by
  show V c (Pipeline.arrRef spec0 1) (((cfg0.win 1).blk t0_0).view.emb i) = _
  refine congrArg (V c main_call0_v0) (funext fun a => Fin.ext ?_)
  match a with
  | ⟨0, _⟩ => show 0 * 512 + 1 * (i 0).val = (i 0).val; omega
  | ⟨1, _⟩ => show 0 * 512 + 1 * (i 1).val = (i 1).val; omega
theorem S1v_apply (c : Dev nD) (i : S4096x512.Idx) : S1v V c i = V c main_call0_v5 i := by
  show V c (Pipeline.arrRef spec1 1) (((cfg1.win 1).blk t1_0).view.emb i) = _
  refine congrArg (V c main_call0_v5) (funext fun a => Fin.ext ?_)
  match a with
  | ⟨0, _⟩ => show 0 * 4096 + 1 * (i 0).val = (i 0).val; omega
  | ⟨1, _⟩ => show 0 * 512 + 1 * (i 1).val = (i 1).val; omega
theorem W2v_apply (c : Dev nD) (i : S512x256.Idx) : W2v V c i = V c main_call0_v1 i := by
  show V c (Pipeline.arrRef spec1 2) (((cfg1.win 2).blk t1_0).view.emb i) = _
  refine congrArg (V c main_call0_v1) (funext fun a => Fin.ext ?_)
  match a with
  | ⟨0, _⟩ => show 0 * 512 + 1 * (i 0).val = (i 0).val; omega
  | ⟨1, _⟩ => show 0 * 256 + 1 * (i 1).val = (i 1).val; omega
theorem Wzv_apply (c : Dev nD) (i : S256x64.Idx) : Wzv V c i = V c main_call0_v3 i := by
  show V c (Pipeline.arrRef spec1 3) (((cfg1.win 3).blk t1_0).view.emb i) = _
  refine congrArg (V c main_call0_v3) (funext fun a => Fin.ext ?_)
  match a with
  | ⟨0, _⟩ => show 0 * 256 + 1 * (i 0).val = (i 0).val; omega
  | ⟨1, _⟩ => show 0 * 64 + 1 * (i 1).val = (i 1).val; omega
theorem Bzv_apply (c : Dev nD) (i : S1x64.Idx) : Bzv V c i = V c main_call0_v4 i := by
  show V c (Pipeline.arrRef spec1 4) (((cfg1.win 4).blk t1_0).view.emb i) = _
  refine congrArg (V c main_call0_v4) (funext fun a => Fin.ext ?_)
  match a with
  | ⟨0, _⟩ => show 0 * 1 + 1 * (i 0).val = (i 0).val; omega
  | ⟨1, _⟩ => show 0 * 64 + 1 * (i 1).val = (i 1).val; omega

end Reads

/-! # The buffers' contents when each region is entered, at the ideal instance -/

section Entry

variable (m : (ℓ : Loc nD τ sig) → Buf (Elt Ideal) ℓ)

theorem V1_v0 (c : Dev nD) : (V1 m c main_call0_v0 : S512x512.Idx → EReal) = (m ((c : Thread nD τ).loc main_arg2) : S512x512.Idx → EReal) := by
  show StableHlo.after hostOps0 (fun b => m (c, b)) (Proc.devRef .tc main_call0_v0) = _
  after_results
  rfl
theorem V1_v1 (c : Dev nD) : (V1 m c main_call0_v1 : S512x256.Idx → EReal) = (m ((c : Thread nD τ).loc main_arg3) : S512x256.Idx → EReal) := by
  show StableHlo.after hostOps0 (fun b => m (c, b)) (Proc.devRef .tc main_call0_v1) = _
  after_results
  rfl
theorem V1_v3 (c : Dev nD) : (V1 m c main_call0_v3 : S256x64.Idx → EReal)
    = transpose S256x64 [1, 0] (m ((c : Thread nD τ).loc main_arg4) : S64x256.Idx → EReal) Facts₀.transposes_S64x256_S256x64_1_0 := by
  show StableHlo.after hostOps0 (fun b => m (c, b)) (Proc.devRef .tc main_call0_v3) = _
  after_results
  rfl
theorem V1_v4 (c : Dev nD) : (V1 m c main_call0_v4 : S1x64.Idx → EReal)
    = shapeCast S1x64 (m ((c : Thread nD τ).loc main_arg5) : S64.Idx → EReal) Facts₀.shapeCasts_S64_S1x64 := by
  show StableHlo.after hostOps0 (fun b => m (c, b)) (Proc.devRef .tc main_call0_v4) = _
  after_results
  rfl

end Entry

end Cert.KernelIdeal.Hand

end
-- ==== Proof.Bridge2.lean ====
import proofs.«139762_g57612691309227_cont_sun_m_451_20_alg».proof.Proof.Gen.KernelIdeal.Launch
import proofs.«139762_g57612691309227_cont_sun_m_451_20_alg».proof.Proof.Gen.KernelIdeal.Skeleton
import proofs.«139762_g57612691309227_cont_sun_m_451_20_alg».proof.Proof.Gen.KernelIdeal.Points
import proofs.«139762_g57612691309227_cont_sun_m_451_20_alg».proof.Proof.Bridge1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix2 eq_ix2 idx2_lt0 idx2_lt1)
open Cert.LibMatProd Cert.Spec Cert.KernelIdeal.Pay

/-! # The kernel's arrays are the encoder's matrices

With the arguments named x, adj, W1, W2, Wz, bz: region 0 leaves s1 = x · W1; region 1 leaves h1, h2 and z. Each
entry of a product reads one row of the left factor — the row the window's block holds — and one column of
the right factor. -/

theorem hz2 : (![0, 0] : Fin 2 → Nat) = fun _ => 0 := funext fun a => by fin_cases a <;> rfl

variable (m : (ℓ : Loc nD τ sig) → Buf (Elt Ideal) ℓ)

abbrev aX (c : Dev nD) : (⟨2, ![4096, 512]⟩ : Shape).Idx → EReal := m ((c : Thread nD τ).loc main_arg0)
abbrev aAdj (c : Dev nD) : (⟨2, ![4096, 4096]⟩ : Shape).Idx → EReal := m ((c : Thread nD τ).loc main_arg1)
abbrev aW1 (c : Dev nD) : (⟨2, ![512, 512]⟩ : Shape).Idx → EReal := m ((c : Thread nD τ).loc main_arg2)
abbrev aW2 (c : Dev nD) : (⟨2, ![512, 256]⟩ : Shape).Idx → EReal := m ((c : Thread nD τ).loc main_arg3)
abbrev aWz (c : Dev nD) : (⟨2, ![64, 256]⟩ : Shape).Idx → EReal := m ((c : Thread nD τ).loc main_arg4)
abbrev aBz (c : Dev nD) : (⟨1, ![64]⟩ : Shape).Idx → EReal := m ((c : Thread nD τ).loc main_arg5)

/-! ## The entry contents of region 1 -/

theorem V1_arg0 (c : Dev nD) : (V1 m c main_arg0 : S4096x512.Idx → EReal) = aX m c := W1_arg m c main_arg0 (by decide)
theorem V2_arg1 (c : Dev nD) : (V2 m c main_arg1 : S4096x4096.Idx → EReal) = aAdj m c :=
  (W2_of_ne m c main_arg1 (by decide)).trans (W1_arg m c main_arg1 (by decide))
theorem V2_v5 (c : Dev nD) : (V2 m c main_call0_v5 : S4096x512.Idx → Elt Ideal .bf16) = G0 (V1 m) c :=
  (W2_arr m c 2).trans (final0_2 (V1 m) c)
theorem V2_v1 (c : Dev nD) : (V2 m c main_call0_v1 : S512x256.Idx → EReal) = aW2 m c :=
  (W2_of_ne m c main_call0_v1 (by decide)).trans (V1_v1 m c)
theorem V2_v3 (c : Dev nD) : (V2 m c main_call0_v3 : S256x64.Idx → EReal)
    = transpose S256x64 [1, 0] (aWz m c) Facts₀.transposes_S64x256_S256x64_1_0 :=
  (W2_of_ne m c main_call0_v3 (by decide)).trans (V1_v3 m c)
theorem V2_v4 (c : Dev nD) : (V2 m c main_call0_v4 : S1x64.Idx → EReal)
    = shapeCast S1x64 (aBz m c) Facts₀.shapeCasts_S64_S1x64 :=
  (W2_of_ne m c main_call0_v4 (by decide)).trans (V1_v4 m c)

/-! ## Region 0: s1 -/

theorem G0_eq (c : Dev nD) : (G0 (V1 m) c : S4096x512.Idx → EReal) = S1 (aX m c) (aW1 m c) := by
  funext j
  obtain ⟨r, g, rfl⟩ : ∃ (r : Fin 4096) (g : Fin 512), j = ix2 r g := ⟨j 0, j 1, eq_ix2 j⟩
  show out0_2 (XB (V1 m) c (rowBlk0 (ix2 r g))) (W1v (V1 m) c) (ix2 ⟨r.val % 2048, Nat.mod_lt _ (by norm_num)⟩ ⟨g.val, g.isLt⟩) = prodAt (aX m c) (aW1 m c) r g
  unfold out0_2
  rw [View.canon_unit_zero hz2]
  simp only [View.ld_unit_zero (S := S2048x512) hz2, View.ld_unit_zero (S := S512x512) hz2]
  refine (pay0_1 _ _ _ _).trans ?_
  refine prodAt_congr _ _ _ _ _ _ _ _ (fun k => ?_) (fun k => ?_)
  · rw [XB_apply (V1 m) c (rowBlk0 (ix2 r g)) _ k r (by show r.val = 2048 * (r.val / 2048) + r.val % 2048; omega)]
    exact congrFun (V1_arg0 m c) (ix2 r k)
  · rw [W1v_apply (V1 m) c]
    exact congrFun (V1_v0 m c) (ix2 k g)

/-! ## Region 1 -/

/-- A row of h1, as the body computes it from the adjacency row block the window holds. -/
theorem h1row (c : Dev nD) (t : Fin cfg1.N) (p : Fin 512) (g : Fin 512) (r : Fin 4096) (hr : r.val = 512 * min t.val 7 + p.val) :
    k1_pay3 (F := Ideal) (X0 (V2 m) c t) (S1v (V2 m) c) (ix2 p g) = H1 (aAdj m c) (aX m c) (aW1 m c) (ix2 r g) := by
  refine (pay1_3 _ _ p g).trans ?_
  show max _ Z0 = max (prodAt (aAdj m c) (S1 (aX m c) (aW1 m c)) r g) Z0
  refine congrArg (max · Z0) (prodAt_congr _ _ _ _ _ _ _ _ (fun k => ?_) (fun k => ?_))
  · rw [X0_apply (V2 m) c t p k r hr]
    exact congrFun (V2_arg1 m c) (ix2 r k)
  · rw [S1v_apply (V2 m) c]
    exact (congrFun (V2_v5 m c) (ix2 k g)).trans (congrFun (G0_eq m c) (ix2 k g))

theorem G5_eq (c : Dev nD) : (G5 (V2 m) c : S4096x512.Idx → EReal) = H1 (aAdj m c) (aX m c) (aW1 m c) := by
  funext j
  obtain ⟨r, g, rfl⟩ : ∃ (r : Fin 4096) (g : Fin 512), j = ix2 r g := ⟨j 0, j 1, eq_ix2 j⟩
  show out1_5 (X0 (V2 m) c (rowBlk (ix2 r g))) (S1v (V2 m) c) (ix2 ⟨r.val % 512, Nat.mod_lt _ (by norm_num)⟩ ⟨g.val, g.isLt⟩) = _
  unfold out1_5
  rw [View.canon_unit_zero hz2]
  simp only [View.ld_unit_zero (S := S512x4096) hz2, View.ld_unit_zero (S := S4096x512) hz2]
  exact h1row m c (rowBlk (ix2 r g)) _ g r (by show r.val = 512 * min (r.val / 512) 7 + r.val % 512; have := r.isLt; omega)

/-- The second scratch, once filled, is s2 = h1 · W2. -/
theorem A1_eq (c : Dev nD) : (A1 (V2 m) c : S4096x256.Idx → EReal) = S2 (aAdj m c) (aX m c) (aW1 m c) (aW2 m c) := by
  funext j
  obtain ⟨r, g, rfl⟩ : ∃ (r : Fin 4096) (g : Fin 256), j = ix2 r g := ⟨j 0, j 1, eq_ix2 j⟩
  show k1_pay4 (F := Ideal) (View.ld (X0 (V2 m) c (rowBlk (ix2 r g))) r1_a) (View.ld (S1v (V2 m) c) r1_s1) (View.ld (W2v (V2 m) c) r1_w2)
      (ix2 ⟨r.val % 512, Nat.mod_lt _ (by norm_num)⟩ ⟨g.val, g.isLt⟩) = prodAt (H1 (aAdj m c) (aX m c) (aW1 m c)) (aW2 m c) r g
  simp only [View.ld_unit_zero (S := S512x4096) hz2, View.ld_unit_zero (S := S4096x512) hz2, View.ld_unit_zero (S := S512x256) hz2]
  refine (pay1_4 _ _ _ _ _).trans ?_
  refine prodAt_congr _ _ _ _ _ _ _ _ (fun k => ?_) (fun k => ?_)
  · exact h1row m c (rowBlk (ix2 r g)) _ k r (by show r.val = 512 * min (r.val / 512) 7 + r.val % 512; have := r.isLt; omega)
  · rw [W2v_apply (V2 m) c]
    exact congrFun (V2_v1 m c) (ix2 k g)

/-- The parked adjacency row block is the adjacency row block. -/
theorem Abf_eq (c : Dev nD) (t : Fin cfg1.N) : Abf (V2 m) c t = X0 (V2 m) c t := by
  unfold Abf
  rw [View.ld_unit_zero (S := S512x4096) hz2]
  exact pay1_2 _

/-- A row of h2. -/
theorem h2row (c : Dev nD) (t : Fin cfg1.N) (p : Fin 512) (g : Fin 256) (r : Fin 4096) (hr : r.val = 512 * min t.val 7 + p.val) :
    k1_pay5 (F := Ideal) (Abf (V2 m) c t) (View.ld (A1 (V2 m) c) r1_s2) (ix2 p g)
      = H2 (aAdj m c) (aX m c) (aW1 m c) (aW2 m c) (ix2 r g) := by
  rw [Abf_eq, View.ld_unit_zero (S := S4096x256) hz2]
  refine (pay1_5 _ _ p g).trans ?_
  show max _ Z0 = max (prodAt (aAdj m c) (S2 (aAdj m c) (aX m c) (aW1 m c) (aW2 m c)) r g) Z0
  refine congrArg (max · Z0) (prodAt_congr _ _ _ _ _ _ _ _ (fun k => ?_) (fun k => ?_))
  · rw [X0_apply (V2 m) c t p k r hr]
    exact congrFun (V2_arg1 m c) (ix2 r k)
  · exact congrFun (A1_eq m c) (ix2 k g)

theorem G6_eq (c : Dev nD) : (G6 (V2 m) c : S4096x256.Idx → EReal) = H2 (aAdj m c) (aX m c) (aW1 m c) (aW2 m c) := by
  funext j
  obtain ⟨r, g, rfl⟩ : ∃ (r : Fin 4096) (g : Fin 256), j = ix2 r g := ⟨j 0, j 1, eq_ix2 j⟩
  show out1_6 (Abf (V2 m) c (rowBlk (ix2 r g))) (View.ld (A1 (V2 m) c) r1_s2) (ix2 ⟨r.val % 512, Nat.mod_lt _ (by norm_num)⟩ ⟨g.val, g.isLt⟩) = _
  unfold out1_6
  rw [View.canon_unit_zero hz2]
  exact h2row m c (rowBlk (ix2 r g)) _ g r (by show r.val = 512 * min (r.val / 512) 7 + r.val % 512; have := r.isLt; omega)

theorem G7_eq (c : Dev nD) : (G7 (V2 m) c : S4096x64.Idx → EReal)
    = Zo (aAdj m c) (aX m c) (aW1 m c) (aW2 m c) (aWz m c) (aBz m c) := by
  funext j
  obtain ⟨r, g, rfl⟩ : ∃ (r : Fin 4096) (g : Fin 64), j = ix2 r g := ⟨j 0, j 1, eq_ix2 j⟩
  show out1_7 (Abf (V2 m) c (rowBlk (ix2 r g))) (View.ld (A1 (V2 m) c) r1_s2) (Wzv (V2 m) c) (Bzv (V2 m) c)
      (ix2 ⟨r.val % 512, Nat.mod_lt _ (by norm_num)⟩ ⟨g.val, g.isLt⟩)
    = prodAt (H2 (aAdj m c) (aX m c) (aW1 m c) (aW2 m c)) (WzT (aWz m c)) r g + aBz m c (ix1 g)
  unfold out1_7
  rw [View.canon_unit_zero hz2]
  simp only [View.ld_unit_zero (S := S256x64) hz2, View.ld_unit_zero (S := S1x64) hz2]
  refine (pay1_6 _ _ _ _ _ _).trans ?_
  congr 1
  · refine prodAt_congr _ _ _ _ _ _ _ _ (fun k => ?_) (fun k => ?_)
    · exact h2row m c (rowBlk (ix2 r g)) _ k r (by show r.val = 512 * min (r.val / 512) 7 + r.val % 512; have := r.isLt; omega)
    · rw [Wzv_apply (V2 m) c]
      refine (congrFun (V2_v3 m c) (ix2 k g)).trans ?_
      exact transpose_apply [1, 0] (aWz m c) Facts₀.transposes_S64x256_S256x64_1_0 (ix2 k g) (ix2 g k) (fun b => match b with
        | ⟨0, _⟩ => rfl
        | ⟨1, _⟩ => rfl)
  · rw [Bzv_apply (V2 m) c]
    refine (congrFun (V2_v4 m c) (ix2 0 g)).trans ?_
    exact shapeCast_apply (aBz m c) Facts₀.shapeCasts_S64_S1x64 (ix2 0 g) (ix1 g) (by
      rw [Shape.rowMajor_val_two, Shape.rowMajor_val_one]; show g.val = 0 * 64 + g.val; omega)

end Cert.KernelIdeal.Hand

end
-- ==== Proof.RefSide.lean ====
/-
  The reference program's three results are the encoder's matrices: each of its host products is the plain
  matrix product, its relu the maximum with the zero word, its transpose and its two broadcasts read at an entry.
-/
import proofs.«139762_g57612691309227_cont_sun_m_451_20_alg».proof.Proof.Gen.ReferenceIdeal.Read
import proofs.«139762_g57612691309227_cont_sun_m_451_20_alg».proof.Proof.Payload

set_option maxRecDepth 16384

noncomputable section

namespace Cert.ReferenceIdeal.RefValue

open Cert.ReferenceIdeal Cert.ReferenceIdeal.Read Idealize.ShloMosaic Idealize.ShloMosaic.ValueIdx Cert.LibMatProd Cert.Spec

variable (adj : (⟨2, ![4096, 4096]⟩ : Shape).Idx → EReal) (x : (⟨2, ![4096, 512]⟩ : Shape).Idx → EReal)
  (w1 : (⟨2, ![512, 512]⟩ : Shape).Idx → EReal) (w2 : (⟨2, ![512, 256]⟩ : Shape).Idx → EReal)
  (wz : (⟨2, ![64, 256]⟩ : Shape).Idx → EReal) (bz : (⟨1, ![64]⟩ : Shape).Idx → EReal)

theorem v0_eq : val_main_v0 (F := Ideal) x w1 = S1 x w1 := by
  show Host.dotGeneral (F := Ideal) (DotDims.plain 4096 512 512) none x w1 = prod x w1
  exact host_prod_eq x w1

theorem relu0_apply (i : S4096x512.Idx) : val_main_call0_v0 (F := Ideal) i = Z0 := by
  rw [val_main_call0_v0_apply]; rfl
theorem relu1_apply (i : S4096x256.Idx) : val_main_call1_v0 (F := Ideal) i = Z0 := by
  rw [val_main_call1_v0_apply]; rfl

theorem v1_eq : val_main_v1 (F := Ideal) x adj w1 = prod adj (S1 x w1) := by
  show Host.dotGeneral (F := Ideal) (DotDims.plain 4096 4096 512) none adj (val_main_v0 (F := Ideal) x w1) = _
  rw [v0_eq]
  exact host_prod_eq adj (S1 x w1)

theorem v2_eq : val_main_v2 (F := Ideal) x adj w1 = H1 adj x w1 := by
  funext i
  show max (val_main_v1 (F := Ideal) x adj w1 i) (val_main_call0_v0 (F := Ideal) i) = max (prod adj (S1 x w1) i) Z0
  rw [v1_eq, relu0_apply]

theorem v3_eq : val_main_v3 (F := Ideal) x adj w1 w2 = S2 adj x w1 w2 := by
  show Host.dotGeneral (F := Ideal) (DotDims.plain 4096 512 256) none (val_main_v2 (F := Ideal) x adj w1) w2 = _
  rw [v2_eq]
  exact host_prod_eq (H1 adj x w1) w2

theorem v4_eq : val_main_v4 (F := Ideal) x adj w1 w2 = prod adj (S2 adj x w1 w2) := by
  show Host.dotGeneral (F := Ideal) (DotDims.plain 4096 4096 256) none adj (val_main_v3 (F := Ideal) x adj w1 w2) = _
  rw [v3_eq]
  exact host_prod_eq adj (S2 adj x w1 w2)

theorem v5_eq : val_main_v5 (F := Ideal) x adj w1 w2 = H2 adj x w1 w2 := by
  funext i
  show max (val_main_v4 (F := Ideal) x adj w1 w2 i) (val_main_call1_v0 (F := Ideal) i) = max (prod adj (S2 adj x w1 w2) i) Z0
  rw [v4_eq, relu1_apply]

theorem v6_eq : val_main_v6 (F := Ideal) wz = WzT wz := by
  funext i
  rw [val_main_v6_apply]
  show wz (idx_main_v6 i) = wz (ix2 (i 1) (i 0))
  refine congrArg wz (funext fun a => ?_)
  match a with
  | ⟨0, _⟩ => rfl
  | ⟨1, _⟩ => rfl

theorem v7_eq : val_main_v7 (F := Ideal) x adj w1 w2 wz = prod (H2 adj x w1 w2) (WzT wz) := by
  show Host.dotGeneral (F := Ideal) (DotDims.plain 4096 256 64) none (val_main_v5 (F := Ideal) x adj w1 w2) (val_main_v6 (F := Ideal) wz) = _
  rw [v5_eq, v6_eq]
  exact host_prod_eq (H2 adj x w1 w2) (WzT wz)

theorem v9_apply (i : S4096x64.Idx) : val_main_v9 (F := Ideal) bz i = bz (ix1 (i 1)) := by
  rw [val_main_v9_apply, val_main_v8_apply]
  refine congrArg bz (funext fun a => ?_)
  match a with
  | ⟨0, _⟩ => rfl

theorem v10_eq : val_main_v10 (F := Ideal) x adj w1 w2 wz bz = Zo adj x w1 w2 wz bz := by
  funext i
  show val_main_v7 (F := Ideal) x adj w1 w2 wz i + val_main_v9 (F := Ideal) bz i = prod (H2 adj x w1 w2) (WzT wz) i + bz (ix1 (i 1))
  rw [v7_eq, v9_apply]

end Cert.ReferenceIdeal.RefValue

end
-- ==== Proof.lean ====
/-
  The certificate of the two-layer graph encoder: h1 = relu(adj · (x · W1)), h2 = relu(adj · (h1 · W2)),
  z = h2 · Wzᵀ + bz.

  The kernel runs two regions. Region 0 computes s1 = x · W1 in two row blocks. Region 1 walks a 2 × 8 grid:
  in phase 0 the point of row block m parks the adjacency row block in a scratch, writes h1's row block
  relu(adj_m · s1) and leaves rows 512·m … of s2 = h1 · W2 in a second scratch; in phase 1 the point of row
  block m reads adj_m back from the first scratch and s2 whole from the second, and writes h2's row block
  relu(adj_m · s2) and z's row block h2_m · Wzᵀ + bz. The frames follow the scratches through the sixteen points
  by an invariant: before point n the scratches hold the final contents on the rows of the blocks already
  handled. Each output array is then the function whose row r is read from the block r / 512, and at the ideal
  instance (a change of float format the identity, every product the plain sum over k) each entry is the
  entry of the reference's matrix: both sides are the same sums, in the same association, so no finiteness of
  the inputs is used.
-/
import proofs.«139762_g57612691309227_cont_sun_m_451_20_alg».proof.Defs
import proofs.«139762_g57612691309227_cont_sun_m_451_20_alg».proof.Proof.Kernel.Run
import proofs.«139762_g57612691309227_cont_sun_m_451_20_alg».proof.Proof.Bridge2
import proofs.«139762_g57612691309227_cont_sun_m_451_20_alg».proof.Proof.RefSide
import proofs.«139762_g57612691309227_cont_sun_m_451_20_alg».proof.Proof.Gen.Kernel
import proofs.«139762_g57612691309227_cont_sun_m_451_20_alg».proof.Proof.Gen.KernelIdeal
import proofs.«139762_g57612691309227_cont_sun_m_451_20_alg».proof.Proof.Gen.ReferenceIdeal
import proofs.«139762_g57612691309227_cont_sun_m_451_20_alg».proof.Proof.Gen.ReferenceIdeal.Run
import proofs.«139762_g57612691309227_cont_sun_m_451_20_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem
open Cert.Spec

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

open Cert.KernelIdeal Cert.KernelIdeal.Hand in
/-- The idealized kernel's run with its three result arrays named as the encoder's matrices of the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v0_0) = H1 (aAdj m c) (aX m c) (aW1 m c)
      ∧ r.2.mem ((c.tc : Thread nD τ).loc main_v0_1) = H2 (aAdj m c) (aX m c) (aW1 m c) (aW2 m c)
      ∧ r.2.mem ((c.tc : Thread nD τ).loc main_v0_2) = Zo (aAdj m c) (aX m c) (aW1 m c) (aW2 m c) (aWz m c) (aBz m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0_0 (by decide))).trans ((W3_arr m c 5).trans ((final1_5 (V2 m) c).trans (G5_eq m c))),
     (h c _ (mem_uc main_v0_1 (by decide))).trans ((W3_arr m c 6).trans ((final1_6 (V2 m) c).trans (G6_eq m c))),
     (h c _ (mem_uc main_v0_2 (by decide))).trans ((W3_arr m c 7).trans ((final1_7 (V2 m) c).trans (G7_eq m c))),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all (F := Ideal) m ρ)

open Cert.ReferenceIdeal Cert.ReferenceIdeal.Read Cert.ReferenceIdeal.RefValue in
/-- From memories that agree on the arguments both programs end with the encoder's three matrices. -/
theorem algebraic : Cert.algebraic_KernelIdeal_ReferenceIdeal := by
  intro m ρ m' ρ' _ hagree
  refine ⟨fun c => H1 (Cert.KernelIdeal.Hand.aAdj m c) (Cert.KernelIdeal.Hand.aX m c) (Cert.KernelIdeal.Hand.aW1 m c),
    fun c => H2 (Cert.KernelIdeal.Hand.aAdj m c) (Cert.KernelIdeal.Hand.aX m c) (Cert.KernelIdeal.Hand.aW1 m c) (Cert.KernelIdeal.Hand.aW2 m c),
    fun c => Zo (Cert.KernelIdeal.Hand.aAdj m c) (Cert.KernelIdeal.Hand.aX m c) (Cert.KernelIdeal.Hand.aW1 m c) (Cert.KernelIdeal.Hand.aW2 m c)
      (Cert.KernelIdeal.Hand.aWz m c) (Cert.KernelIdeal.Hand.aBz m c),
    kernel_run m ρ, ?_⟩
  refine (θ_run Cert.ReferenceIdeal.defs _ _).mono (fun r h c => ?_) (Cert.ReferenceIdeal.Value.run (F := Ideal) m' ρ')
  obtain ⟨h2, h5, h10, a0, a1, a2, a3, a4, a5⟩ := h c
  obtain ⟨g0, g1, g2, g3, g4, g5⟩ := hagree c
  refine ⟨?_, ?_, ?_, a0, a1, a2, a3, a4, a5⟩
  · rw [h2, val_main_v2_eq, g0, g1, g2]
    exact v2_eq _ _ _
  · rw [h5, val_main_v5_eq, g0, g1, g2, g3]
    exact v5_eq _ _ _ _
  · rw [h10, val_main_v10_eq, g0, g1, g2, g3, g4, g5]
    exact v10_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
